-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x127 : Shape := ⟨2, ![500000, 127]⟩
abbrev S500000x128 : Shape := ⟨2, ![500000, 128]⟩
abbrev S128x128 : Shape := ⟨2, ![128, 128]⟩
abbrev S255x255 : Shape := ⟨2, ![255, 255]⟩
abbrev S_ : Shape := ⟨0, ![]⟩

class Facts : Prop where
  bcast_S_S500000x127 : S_.BroadcastsInDim S500000x127 (![] : Fin 0 → Fin S500000x127.rank)
  reducesTo_S500000x127_S_d0_1 : S500000x127.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S128x128 : S_.BroadcastsInDim S128x128 (![] : Fin 0 → Fin S128x128.rank)
  reducesTo_S128x128_S_d0_1 : S128x128.ReducesTo [0, 1] S_
  bcast_S_S255x255 : S_.BroadcastsInDim S255x255 (![] : Fin 0 → Fin S255x255.rank)
  reducesTo_S255x255_S_d0_1 : S255x255.ReducesTo [0, 1] S_

variable [Facts]

def fn_part1 {F : FTy → Type} [FloatOps F] (main_v13 : IVec S_ 1) (main_v16 : IVec S255x255 1) : IVec S_ 1 :=
  let main_c_5 : IVec S_ 1 := constantI S_ 1 1#1
  let main_v17 : IVec S_ 1 := (fun x v => Host.reduce IntOp.andi x v reducesTo_S255x255_S_d0_1 h_S_) main_v16 main_c_5
  let main_v18 : IVec S_ 1 := andi main_v13 main_v17
  main_v18

def fn {F : FTy → Type} [FloatOps F] (main_arg0 : FVec F S500000x127 .f32) (main_arg1 : FVec F S500000x128 .f32) (main_arg2 : FVec F S128x128 .f32) (main_arg3 : FVec F S255x255 .f32) : IVec S_ 1 :=
  let main_v0 : FVec F S500000x127 .f32 := Host.absf main_arg0
  let main_cst : FVec F S_ .f32 := constant S_ .f32 0x7F800000#32
  let main_v1 : FVec F S500000x127 .f32 := broadcastInDim S500000x127 ![] bcast_S_S500000x127 main_cst
  let main_v2 : IVec S500000x127 1 := cmpf .olt main_v0 main_v1
  let main_c : IVec S_ 1 := constantI S_ 1 1#1
  let main_v3 : IVec S_ 1 := (fun x v => Host.reduce IntOp.andi x v reducesTo_S500000x127_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S255x255 .f32 := Host.absf main_arg3
  let main_cst_4 : FVec F S_ .f32 := constant S_ .f32 0x7F800000#32
  let main_v15 : FVec F S255x255 .f32 := broadcastInDim S255x255 ![] bcast_S_S255x255 main_cst_4
  let main_v16 : IVec S255x255 1 := cmpf .olt main_v14 main_v15
  fn_part1 (F := F) main_v13 main_v16
-- ==== Kernel.lean ====
abbrev S500000x127 : Shape := ⟨2, ![500000, 127]⟩
abbrev S500000x128 : Shape := ⟨2, ![500000, 128]⟩
abbrev S128x128 : Shape := ⟨2, ![128, 128]⟩
abbrev S255x255 : Shape := ⟨2, ![255, 255]⟩
abbrev S1x128 : Shape := ⟨2, ![1, 128]⟩
abbrev S10000x128 : Shape := ⟨2, ![10000, 128]⟩
abbrev S128 : Shape := ⟨1, ![128]⟩
abbrev S_ : Shape := ⟨0, ![]⟩
abbrev S127x255 : Shape := ⟨2, ![127, 255]⟩
abbrev S128x255 : Shape := ⟨2, ![128, 255]⟩
abbrev S500000x255 : Shape := ⟨2, ![500000, 255]⟩
abbrev S5000x127 : Shape := ⟨2, ![5000, 127]⟩
abbrev S5000x128 : Shape := ⟨2, ![5000, 128]⟩
abbrev S5000x255 : Shape := ⟨2, ![5000, 255]⟩

abbrev nBuf : Space → Nat
  | .hbm => 23
  | .vmem => 15
  | .smem => 0
  | _ => 0

abbrev bufTy : (tb : Table) → Fin (tcTables nBuf tb) → BufTy
  | .hbm, ⟨0, _⟩ => ⟨S500000x127, .f32⟩
  | .hbm, ⟨1, _⟩ => ⟨S500000x128, .f32⟩
  | .hbm, ⟨2, _⟩ => ⟨S128x128, .f32⟩
  | .hbm, ⟨3, _⟩ => ⟨S255x255, .f32⟩
  | .hbm, ⟨4, _⟩ => ⟨S1x128, .f32⟩
  | .hbm, ⟨5, _⟩ => ⟨S1x128, .f32⟩
  | .hbm, ⟨6, _⟩ => ⟨S_, .f32⟩
  | .hbm, ⟨7, _⟩ => ⟨S1x128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S128x128, .f32⟩
  | .hbm, ⟨19, _⟩ => ⟨S255x255, .f32⟩
  | .hbm, ⟨20, _⟩ => ⟨S127x255, .f32⟩
  | .hbm, ⟨21, _⟩ => ⟨S128x255, .f32⟩
  | .hbm, ⟨22, _⟩ => ⟨S500000x255, .f32⟩
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S1x128, .f32⟩
  | .local _ .vmem, ⟨4, _⟩ => ⟨S5000x127, .f32⟩
  | .local _ .vmem, ⟨5, _⟩ => ⟨S5000x127, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S127x255, .f32⟩
  | .local _ .vmem, ⟨12, _⟩ => ⟨S128x255, .f32⟩
  | .local _ .vmem, ⟨13, _⟩ => ⟨S5000x255, .f32⟩
  | .local _ .vmem, ⟨14, _⟩ => ⟨S5000x255, .f32⟩
  | _, _ => ⟨S500000x127, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_2 : BitVec 32 := 0#32
  let v8 : BitVec 1 := Scalar.cmpi .ne v7 c0_i32_2
  v8

def k0_cond2 (i : grid0.Coords) : BitVec 1 :=
  let arg0 : BitVec 32 := BitVec.ofNat 32 (i 0).val
  let c0_i32_3 : BitVec 32 := 0#32
  let v9 : BitVec 1 := Scalar.cmpi .ne arg0 c0_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x127 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S127x255 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x255 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x255 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bcast_S_S1x128 : S_.BroadcastsInDim S1x128 (![] : Fin 0 → Fin S1x128.rank)
  transposes_S128x128_S128x128_1_0 : S128x128.Transposes [1, 0] S128x128
  transposes_S255x255_S255x255_1_0 : S255x255.Transposes [1, 0] S255x255
  slices_S255x255_S127x255_0_0 : S255x255.Slices ![0, 0] S127x255
  slices_S255x255_S128x255_127_0 : S255x255.Slices ![127, 0] S128x255
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x127_S5000x127_0_0 : ∀ a, (![0, 0] : Fin 2 → Nat) a + S5000x127.size a ≤ S5000x127.size a
  h_S5000x127 : 0 < S5000x127.numel
  inb_S127x255_S127x255_0_0 : ∀ a, (![0, 0] : Fin 2 → Nat) a + S127x255.size a ≤ S127x255.size a
  h_S127x255 : 0 < S127x255.numel
  shapeCasts_S127x255_S127x255 : S127x255.ShapeCasts S127x255
  inb_S128x255_S128x255_0_0 : ∀ a, (![0, 0] : Fin 2 → Nat) a + S128x255.size a ≤ S128x255.size a
  h_S128x255 : 0 < S128x255.numel
  shapeCasts_S128x255_S128x255 : S128x255.ShapeCasts S128x255
  inb_S5000x255_S5000x255_0_0 : ∀ a, (![0, 0] : Fin 2 → Nat) a + S5000x255.size a ≤ S5000x255.size a
  h_S5000x255 : 0 < S5000x255.numel
  dot_S5000x128_S128x128_S5000x128_1_0_0_1_n_n_wf : DotDims.WF S5000x128 S128x128 S5000x128 [1] [0] [0] [1] [] []
  dot_S5000x127_S127x255_S5000x255_1_0_0_1_n_n_wf : DotDims.WF S5000x127 S127x255 S5000x255 [1] [0] [0] [1] [] []
  dot_S5000x128_S128x255_S5000x255_1_0_0_1_n_n_wf : DotDims.WF S5000x128 S128x255 S5000x255 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x127.size a ≤ S500000x127.size a
  hwx1_0 : ∀ i : grid1.Coords, EltTy.bits .f32 = 32 ∨ (Rect.block (s := S500000x127) S5000x127.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S127x255.size a ≤ S127x255.size a
  hwx1_5 : ∀ i : grid1.Coords, EltTy.bits .f32 = 32 ∨ (Rect.block (s := S127x255) S127x255.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x255.size a ≤ S128x255.size a
  hwx1_6 : ∀ i : grid1.Coords, EltTy.bits .f32 = 32 ∨ (Rect.block (s := S128x255) S128x255.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x255.size a ≤ S500000x255.size a
  hwx1_7 : ∀ i : grid1.Coords, EltTy.bits .f32 = 32 ∨ (Rect.block (s := S500000x255) S5000x255.size (cc1_transform_7 i) (hinb1_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x127_S127x255_S5000x255_1_0_0_1_n_n : DotDims S5000x127 S127x255 S5000x255 where
  lhsContracting := [1]
  rhsContracting := [0]
  lhsNonContracting := [0]
  rhsNonContracting := [1]
  lhsBatch := []
  rhsBatch := []
  wf := dot_S5000x127_S127x255_S5000x255_1_0_0_1_n_n_wf
def dot_S5000x128_S128x255_S5000x255_1_0_0_1_n_n : DotDims S5000x128 S128x255 S5000x255 where
  lhsContracting := [1]
  rhsContracting := [0]
  lhsNonContracting := [0]
  rhsNonContracting := [1]
  lhsBatch := []
  rhsBatch := []
  wf := dot_S5000x128_S128x255_S5000x255_1_0_0_1_n_n_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_arg0) S5000x127.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S127x255.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S128x255.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S5000x255.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S500000x127 : Shape := ⟨2, ![500000, 127]⟩
abbrev S500000x128 : Shape := ⟨2, ![500000, 128]⟩
abbrev S128x128 : Shape := ⟨2, ![128, 128]⟩
abbrev S255x255 : Shape := ⟨2, ![255, 255]⟩
abbrev S_ : Shape := ⟨0, ![]⟩
abbrev S128 : Shape := ⟨1, ![128]⟩
abbrev S1x128 : Shape := ⟨2, ![1, 128]⟩
abbrev S500000x255 : Shape := ⟨2, ![500000, 255]⟩

abbrev nBuf : Space → Nat
  | .hbm => 48
  | .vmem => 0
  | .smem => 0
  | _ => 0

abbrev bufTy : (tb : Table) → Fin (tcTables nBuf tb) → BufTy
  | .hbm, ⟨0, _⟩ => ⟨S500000x127, .f32⟩
  | .hbm, ⟨1, _⟩ => ⟨S500000x128, .f32⟩
  | .hbm, ⟨2, _⟩ => ⟨S128x128, .f32⟩
  | .hbm, ⟨3, _⟩ => ⟨S255x255, .f32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S1x128, .f32⟩
  | .hbm, ⟨17, _⟩ => ⟨S500000x128, .f32⟩
  | .hbm, ⟨18, _⟩ => ⟨S500000x128, .f32⟩
  | .hbm, ⟨19, _⟩ => ⟨S500000x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S500000x128, .f32⟩
  | .hbm, ⟨35, _⟩ => ⟨S500000x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S500000x128, .f32⟩
  | .hbm, ⟨41, _⟩ => ⟨S500000x128, .f32⟩
  | .hbm, ⟨42, _⟩ => ⟨S500000x128, .f32⟩
  | .hbm, ⟨43, _⟩ => ⟨S_, .f32⟩
  | .hbm, ⟨44, _⟩ => ⟨S500000x128, .f32⟩
  | .hbm, ⟨45, _⟩ => ⟨S500000x128, .f32⟩
  | .hbm, ⟨46, _⟩ => ⟨S500000x255, .f32⟩
  | .hbm, ⟨47, _⟩ => ⟨S500000x255, .f32⟩
  | _, _ => ⟨S500000x127, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_call1_cst : Ref sig .tc := ⟨.hbm, 43, rfl⟩
abbrev main_call1_v0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩

abbrev nD : Nat := 1
abbrev τ : Topo := Topo.v7x

variable {F : FTy → Type} [FloatOps F]

class Facts₀ : Prop where
  reducesTo_S500000x128_S128_d0 : S500000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  concatenates_S500000x127_S500000x128_S500000x255_d1 : Shape.Concatenates [S500000x127, S500000x128] S500000x255 1
  dot_S500000x128_S128x128_S500000x128_1_1_0_0_n_n_wf : DotDims.WF S500000x128 S128x128 S500000x128 [1] [1] [0] [0] [] []
  dot_S500000x255_S255x255_S500000x255_1_1_0_0_n_n_wf : DotDims.WF S500000x255 S255x255 S500000x255 [1] [1] [0] [0] [] []

variable [Facts₀]

def dot_S500000x128_S128x128_S500000x128_1_1_0_0_n_n : DotDims S500000x128 S128x128 S500000x128 where
  lhsContracting := [1]
  rhsContracting := [1]
  lhsNonContracting := [0]
  rhsNonContracting := [0]
  lhsBatch := []
  rhsBatch := []
  wf := dot_S500000x128_S128x128_S500000x128_1_1_0_0_n_n_wf
def dot_S500000x255_S255x255_S500000x255_1_1_0_0_n_n : DotDims S500000x255 S255x255 S500000x255 where
  lhsContracting := [1]
  rhsContracting := [1]
  lhsNonContracting := [0]
  rhsNonContracting := [0]
  lhsBatch := []
  rhsBatch := []
  wf := dot_S500000x255_S255x255_S500000x255_1_1_0_0_n_n_wf

class Facts : Prop extends Facts₀ where

variable [Facts]
-- ==== Proof.K.Outs.lean ====
/-
  What each kernel body leaves in its output buffers, as explicit terms over the bodies' arithmetic.

  The statistics kernel keeps two rows of 128 running sums (the column sums of the features and of their squares). At the first grid point it
  stores the block's column sums; at every later point it reads the row it holds, adds the block's column sums and stores the result. The
  main kernel stores one 5000 × 255 tile computed from its seven input blocks. Each store covers its whole buffer, so the buffer after the
  body is the store's value: the canonical read-back of a one-piece list.
-/
import proofs.«108652_j5557687681830_1_alg».proof.Proof.Gen.Kernel.Launch
import proofs.«108652_j5557687681830_1_alg».proof.Proof.Gen.Kernel.Skeleton
import proofs.«108652_j5557687681830_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1 × 128 row. -/
abbrev rowRect : Rect S1x128 := Rect.unit (s := S1x128) ![0, 0] S1x128.size inb_S1x128_S1x128_0_0
/-- The whole 10000 × 128 block of the statistics kernel's input. -/
abbrev statRect : Rect S10000x128 := Rect.unit (s := S10000x128) ![0, 0] S10000x128.size inb_S10000x128_S10000x128_0_0
abbrev featRect : Rect S5000x128 := Rect.unit (s := S5000x128) ![0, 0] S5000x128.size inb_S5000x128_S5000x128_0_0
abbrev prevRect : Rect S5000x127 := Rect.unit (s := S5000x127) ![0, 0] S5000x127.size inb_S5000x127_S5000x127_0_0
abbrev w1Rect : Rect S128x128 := Rect.unit (s := S128x128) ![0, 0] S128x128.size inb_S128x128_S128x128_0_0
abbrev w2hRect : Rect S127x255 := Rect.unit (s := S127x255) ![0, 0] S127x255.size inb_S127x255_S127x255_0_0
abbrev w2aRect : Rect S128x255 := Rect.unit (s := S128x255) ![0, 0] S128x255.size inb_S128x255_S128x255_0_0
abbrev tileRect : Rect S5000x255 := Rect.unit (s := S5000x255) ![0, 0] S5000x255.size inb_S5000x255_S5000x255_0_0

/-- The sums row after the first point: the block's column sums. -/
def firstSum (x : Vec F S10000x128 .f32) : Vec F S1x128 .f32 :=
  View.canon [⟨rowRect, k0_pay1 (View.ld x statRect)⟩]
/-- The squares row after the first point: the column sums of the block's squares. -/
def firstSq (x : Vec F S10000x128 .f32) : Vec F S1x128 .f32 :=
  View.canon [⟨rowRect, k0_pay2 (View.ld x statRect)⟩]
/-- The sums row after a later point: the row held plus the block's column sums. -/
def nextSum (x : Vec F S10000x128 .f32) (a : Vec F S1x128 .f32) : Vec F S1x128 .f32 :=
  View.canon [⟨rowRect, k0_pay3 (View.ld x statRect) (View.ld a rowRect)⟩]
/-- The squares row after a later point. -/
def nextSq (x : Vec F S10000x128 .f32) (a : Vec F S1x128 .f32) : Vec F S1x128 .f32 :=
  View.canon [⟨rowRect, k0_pay4 (View.ld x statRect) (View.ld a rowRect)⟩]

/-- The main kernel's output tile from its seven input blocks (features, mean, inverse deviation, first weights transposed, previous
    embedding, and the two row blocks of the second weights transposed). -/
def tile (h : Vec F S5000x127 .f32) (agg : Vec F S5000x128 .f32) (mean inv : Vec F S1x128 .f32) (w1t : Vec F S128x128 .f32)
    (w2h : Vec F S127x255 .f32) (w2a : Vec F S128x255 .f32) : Vec F S5000x255 .f32 :=
  View.canon [⟨tileRect, k1_pay1 (View.ld agg featRect) (View.ld mean rowRect) (View.ld inv rowRect) (View.ld w1t w1Rect)
    (View.ld h prevRect) (View.ld w2h w2hRect) (View.ld w2a w2aRect)⟩]

theorem cover_row (p0 : Vec F S1x128 .f32) (y : S1x128.Idx) :
    ∃ pc ∈ ([⟨rowRect, p0⟩] : List (View.Piece (Elt F) S1x128 .f32)), y ∈ pc.1.set :=
  View.cover_of_tiled [⟨rowRect, p0⟩] S1x128.size (by rfl) y

theorem cover_tile (p0 : Vec F S5000x255 .f32) (y : S5000x255.Idx) :
    ∃ pc ∈ ([⟨tileRect, p0⟩] : List (View.Piece (Elt F) S5000x255 .f32)), y ∈ pc.1.set :=
  View.cover_of_tiled [⟨tileRect, p0⟩] S5000x255.size (by rfl) y

end Cert.Kernel.Fr

end
-- ==== Proof.K.Data.lean ====
/-
  The proof data of the two pipelines and the buffers' contents between @main's items.

  Pipeline 0 (the statistics kernel) walks 50 blocks of 10000 rows of the features. Its two output rows are written back at the last point only, so
  between points the staging buffers carry the running sums: what a row holds after point n is defined by recursion on n (the first point resets,
  each later point adds its block's column sums to what the point before left). Pipeline 1 (the main kernel) walks 100 blocks of 5000 rows; its
  inputs are only read, and the output tile at a point is a function of the point's input blocks.

  The contents of every buffer at each boundary of @main are a fold from the launch memory: region 0 changes its windows' arrays to what its
  write-backs leave, the host stretch applies its sixteen operations, region 1 changes its windows' arrays likewise.
-/
import proofs.«108652_j5557687681830_1_alg».proof.Proof.Gen.Kernel.Launch
import proofs.«108652_j5557687681830_1_alg».proof.Proof.Gen.Kernel.Skeleton
import proofs.«108652_j5557687681830_1_alg».proof.Proof.Gen.Kernel.Points
import proofs.«108652_j5557687681830_1_alg».proof.Proof.K.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Pipeline 0 -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sums row after the body at position `n`. -/
def sums0 (c : Dev nD) : (n : ℕ) → n < cfg0.N → Vec F S1x128 .f32
  | 0, hn => firstSum (blk0 V c 0 ⟨0, hn⟩)
  | n + 1, hn => nextSum (blk0 V c 0 ⟨n + 1, hn⟩) (sums0 c n (Nat.lt_of_succ_lt hn))

/-- The squares row after the body at position `n`. -/
def sqs0 (c : Dev nD) : (n : ℕ) → n < cfg0.N → Vec F S1x128 .f32
  | 0, hn => firstSq (blk0 V c 0 ⟨0, hn⟩)
  | n + 1, hn => nextSq (blk0 V c 0 ⟨n + 1, hn⟩) (sqs0 c n (Nat.lt_of_succ_lt hn))

theorem sums0_zero (c : Dev nD) (t : Fin cfg0.N) (h0 : t.val = 0) : sums0 V c t.val t.isLt = firstSum (blk0 V c 0 t) := by
  obtain ⟨n, hn⟩ := t
  cases n with
  | zero => rfl
  | succ n => exact absurd h0 (Nat.succ_ne_zero n)
theorem sums0_succ (c : Dev nD) (t : Fin cfg0.N) (h0 : t.val ≠ 0) :
    sums0 V c t.val t.isLt = nextSum (blk0 V c 0 t) (sums0 V c (t.val - 1) (Nat.lt_of_le_of_lt (Nat.sub_le _ _) t.isLt)) := by
  obtain ⟨n, hn⟩ := t
  cases n with
  | zero => exact absurd rfl h0
  | succ n => rfl
theorem sqs0_zero (c : Dev nD) (t : Fin cfg0.N) (h0 : t.val = 0) : sqs0 V c t.val t.isLt = firstSq (blk0 V c 0 t) := by
  obtain ⟨n, hn⟩ := t
  cases n with
  | zero => rfl
  | succ n => exact absurd h0 (Nat.succ_ne_zero n)
theorem sqs0_succ (c : Dev nD) (t : Fin cfg0.N) (h0 : t.val ≠ 0) :
    sqs0 V c t.val t.isLt = nextSq (blk0 V c 0 t) (sqs0 V c (t.val - 1) (Nat.lt_of_le_of_lt (Nat.sub_le _ _) t.isLt)) := by
  obtain ⟨n, hn⟩ := t
  cases n with
  | zero => exact absurd rfl h0
  | succ n => rfl

/-- Pipeline 0's proof data on core `c`: the arrays as the region finds them; after the body the input's buffer at its block and the two
    rows at the running sums; the scoped rest and the pseudo-random register as invariant; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => sums0 V c t.val t.isLt
    | ⟨2, _⟩ => sqs0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = sums0 V c t.val t.isLt := by dsimp only [dat0]
theorem after0_2 (c : Dev nD) (t : Fin cfg0.N) : (dat0 V c).after 2 t = sqs0 V c t.val t.isLt := by dsimp only [dat0]

/-! ## Pipeline 1 -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Pipeline 1's proof data on core `c`: each input's buffer at its block, the output's at the tile of the point's input blocks. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => tile (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t
    = tile (blk1 V c 0 t) (blk1 V c 1 t) (blk1 V c 2 t) (blk1 V c 3 t) (blk1 V c 4 t) (blk1 V c 5 t) (blk1 V c 6 t) := by dsimp only [dat1]

end Regions

/-! ## The buffers' contents at each boundary of @main -/

variable (m : (ℓ : Loc nD τ sig) → Buf (Elt F) ℓ)

/-- Core `c`'s buffers at launch. -/
abbrev W0 : Dev nD → Valuation τ sig (Elt F) := fun c b => m (c, b)
/-- The same read at the TensorCore's references: what region 0 finds. -/
abbrev V0 : (c : Dev nD) → (b : Ref sig .tc) → Buf (Elt F) ((c : Thread nD τ).loc b) := fun c b => W0 m c b
/-- After region 0: its windows' arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
/-- After the host stretch: what region 1 finds. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1: its windows' arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c

end Cert.Kernel.Fr

end
-- ==== Proof.K.Body0.lean ====
/-
  The statistics kernel's body, run on whole staging buffers, in its two cases.

  At the first grid point the first conditional is taken and the second is not: whatever the two output rows held, they end at the block's
  column sums and the column sums of its squares. At every later point it is the other way round: the rows are read, the block's sums added,
  and the results stored. In both cases the input block is left as it was.
-/
import proofs.«108652_j5557687681830_1_alg».proof.Proof.Gen.Kernel.Launch
import proofs.«108652_j5557687681830_1_alg».proof.Proof.Gen.Kernel.Skeleton
import proofs.«108652_j5557687681830_1_alg».proof.Proof.Gen.Kernel.Points
import proofs.«108652_j5557687681830_1_alg».proof.Proof.K.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the rows are overwritten with the block's column sums. -/
theorem stats_first (c : Dev nD) (E : Set ℕ) (i : grid0.Coords) (h1 : k0_cond1 i = 1#1) (h2 : ¬ k0_cond2 i = 1#1)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole)
    (x0 : Vec F S10000x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (firstSum x0)
            ∗ owns (c : Thread nD τ) arg3 fullShare (firstSq x0)) -∗ K ⟨⟩))
      ⊢ wp frame (wpE (defs₀ (F := F)) Variants.none c none) E (cc0__bn_stats_kernel i arg1 harg1 arg2 harg2 arg3 harg3) K := by
  simp only [cc0__bn_stats_kernel_eq_skeleton]; unfold cc0__bn_stats_kernel_skel
  unfold owns
  iintro ⟨⟨%f0, %hf0, H0⟩, ⟨%d1, %f1, -, H1⟩, ⟨%d2, %f2, -, H2⟩, Hk⟩
  subst hf0
  sl_exec (disch := first | exact h1 | exact h2)
  sl_step
  iapply Hk
  isplitl [H0]
  · iexists f0; isplitr; · ipureintro; rfl
    iexact H0
  isplitl [H1]
  · iexists _; isplitr
    swap; · iexact H1
    ipureintro
    exact View.read_writes_eq_canon _ _ _ (cover_row _)
  · iexists _; isplitr
    swap; · iexact H2
    ipureintro
    exact View.read_writes_eq_canon _ _ _ (cover_row _)

set_option maxHeartbeats 1000000 in
/-- A later point: the rows are read, the block's column sums added, the results stored. -/
theorem stats_next (c : Dev nD) (E : Set ℕ) (i : grid0.Coords) (h1 : ¬ k0_cond1 i = 1#1) (h2 : k0_cond2 i = 1#1)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole)
    (x0 : Vec F S10000x128 .f32) (a1 a2 : Vec F S1x128 .f32) (K : PUnit → sProp 𝕄) :
    iprop(owns (c : Thread nD τ) arg1 fullShare x0 ∗ owns (c : Thread nD τ) arg2 fullShare a1 ∗ owns (c : Thread nD τ) arg3 fullShare a2
        ∗ (iprop(owns (c : Thread nD τ) arg1 fullShare x0 ∗ owns (c : Thread nD τ) arg2 fullShare (nextSum x0 a1)
            ∗ owns (c : Thread nD τ) arg3 fullShare (nextSq x0 a2)) -∗ K ⟨⟩))
      ⊢ wp frame (wpE (defs₀ (F := F)) Variants.none c none) E (cc0__bn_stats_kernel i arg1 harg1 arg2 harg2 arg3 harg3) K := by
  simp only [cc0__bn_stats_kernel_eq_skeleton]; unfold cc0__bn_stats_kernel_skel
  unfold owns
  iintro ⟨⟨%f0, %hf0, H0⟩, ⟨%f1, %hf1, H1⟩, ⟨%f2, %hf2, H2⟩, Hk⟩
  subst hf0; subst hf1; subst hf2
  sl_exec (disch := first | exact h1 | exact h2)
  sl_step
  iapply Hk
  isplitl [H0]
  · iexists f0; isplitr; · ipureintro; rfl
    iexact H0
  isplitl [H1]
  · iexists _; isplitr
    swap; · iexact H1
    ipureintro
    exact View.read_writes_eq_canon _ _ _ (cover_row _)
  · iexists _; isplitr
    swap; · iexact H2
    ipureintro
    exact View.read_writes_eq_canon _ _ _ (cover_row _)

end Cert.Kernel.Fr

end
-- ==== Proof.K.Obl0.lean ====
/-
  The statistics pipeline's body obligation.

  At every grid point the body finds the input block in its buffer. At the first point the two rows hold anything and are reset; at a later point they
  hold what the point before left, because the rows are written back only after the last point. The two conditionals depend on the grid
  coordinate alone: the first holds exactly at point 0, the second exactly elsewhere, so no point leaves a row untouched.
-/
import proofs.«108652_j5557687681830_1_alg».proof.Proof.Gen.Kernel.Launch
import proofs.«108652_j5557687681830_1_alg».proof.Proof.Gen.Kernel.Skeleton
import proofs.«108652_j5557687681830_1_alg».proof.Proof.Gen.Kernel.Points
import proofs.«108652_j5557687681830_1_alg».proof.Proof.K.Data
import proofs.«108652_j5557687681830_1_alg».proof.Proof.K.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional holds at the first point only; the second at every other point. -/
theorem hc1 : ∀ t : Fin cfg0.N, k0_cond1 (grid0.coords t) = 1#1 ↔ t.val = 0 :=
  (by decide +kernel : ∀ t : Fin grid0.N, k0_cond1 (grid0.coords t) = 1#1 ↔ t.val = 0)
theorem hc2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two conditionals holds at every coordinate: no window is idle anywhere. -/
theorem live0 : ∀ (w : Fin cfg0.W) (i : grid0.Coords), cfg0.idle w i = false := by decide +kernel

section
variable (V : (c : Dev nD) → (b : Ref sig .tc) → Buf (Elt F) ((c : Thread nD τ).loc b))

/-- The input window's buffer holds its block at every point. -/
theorem before0_0 (c : Dev nD) (t : Fin cfg0.N) (d) : (dat0 V c).before 0 t d = blk0 V c 0 t :=
  ((dat0 V c).before_in_eq_fetched 0 rfl (live0 0) (fun _ _ _ => rfl)
      (fun t => by rw [after0_0]; unfold Dat.blockOf blk0; rw [A_eq0]; try rfl) t d).trans
    (by unfold Dat.fetched Dat.blockOf blk0; rw [A_eq0]; try rfl)

/-- After the first point the sums row holds what the point before left: it is not written back in between. -/
theorem before0_1_next (c : Dev nD) (t : Fin cfg0.N) (h0 : t.val ≠ 0) (d) :
    (dat0 V c).before 1 t d = sums0 V c (t.val - 1) (Nat.lt_of_le_of_lt (Nat.sub_le _ _) t.isLt) := by
  have hN : t.val < 50 := lt_of_lt_of_eq t.isLt (show cfg0.N = 50 from N_0)
  rw [Dat.before_out_kept _ 1 rfl t h0 (Bool.eq_false_iff.mpr fun h => by have := (flush0_1 _).mp h; dsimp only at this; omega)
    (live0 1) (fun _ _ => rfl)]
  dsimp only [dat0]
/-- The same for the squares row. -/
theorem before0_2_next (c : Dev nD) (t : Fin cfg0.N) (h0 : t.val ≠ 0) (d) :
    (dat0 V c).before 2 t d = sqs0 V c (t.val - 1) (Nat.lt_of_le_of_lt (Nat.sub_le _ _) t.isLt) := by
  have hN : t.val < 50 := lt_of_lt_of_eq t.isLt (show cfg0.N = 50 from N_0)
  rw [Dat.before_out_kept _ 2 rfl t h0 (Bool.eq_false_iff.mpr fun h => by have := (flush0_2 _).mp h; dsimp only at this; omega)
    (live0 2) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point, by cases on whether the point is the first. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [sums0_zero V c t h0, sqs0_zero V c t h0]
    iintro ⟨HΦ, Ho, ⟨%d0, H0⟩, ⟨%d1, H1⟩, ⟨%d2, H2⟩⟩
    iapply (stats_first c Set.univ (grid0.coords t) ((hc1 t).mpr h0) (fun h => ((hc2 t).mp h) h0) _ _ _ _ _ _ (blk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [sums0_succ V c t h0, sqs0_succ V c t h0]
    simp only [before0_1_next V c t h0, before0_2_next V c t h0]
    iintro ⟨HΦ, Ho, ⟨%d0, H0⟩, ⟨%d1, H1⟩, ⟨%d2, H2⟩⟩
    iapply (stats_next c Set.univ (grid0.coords t) (fun h => h0 ((hc1 t).mp h)) ((hc2 t).mpr h0) _ _ _ _ _ _ (blk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  repeat rw [live0]
  show bodyPre0 V c t ⊢ wp frame (wpE (defs₀ (F := F)) Variants.none c none) Set.univ (bodyAt0 t) (fun _ => bodyPost0 V c t)
  exact sound_body0 V c t

end

end Cert.Kernel.Fr

end
-- ==== Proof.K.Body1.lean ====
/-
  The main kernel's body, run on whole staging buffers: it reads its seven input blocks, leaves them as they were, and overwrites the output
  tile with the value computed from them.
-/
import proofs.«108652_j5557687681830_1_alg».proof.Proof.Gen.Kernel.Launch
import proofs.«108652_j5557687681830_1_alg».proof.Proof.Gen.Kernel.Skeleton
import proofs.«108652_j5557687681830_1_alg».proof.Proof.Gen.Kernel.Points
import proofs.«108652_j5557687681830_1_alg».proof.Proof.K.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body: the inputs kept, the output buffer at the tile of the input blocks. -/
theorem main_body (c : Dev nD) (E : Set ℕ) (i : grid1.Coords)
    (arg1 : Memref sig .tc .vmem S5000x127 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S127x255 .f32) (harg6 : arg6.IsWhole)
    (arg7 : Memref sig .tc .vmem S128x255 .f32) (harg7 : arg7.IsWhole) (arg8 : Memref sig .tc .vmem S5000x255 .f32) (harg8 : arg8.IsWhole)
    (x1 : Vec F S5000x127 .f32) (x2 : Vec F S5000x128 .f32) (x3 x4 : Vec F S1x128 .f32) (x5 : Vec F S128x128 .f32)
    (x6 : Vec F S127x255 .f32) (x7 : Vec F S128x255 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (tile x1 x2 x3 x4 x5 x6 x7)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8) K := by
  simp only [cc1__main_kernel_eq_skeleton]; unfold cc1__main_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_tile _)

end Cert.Kernel.Fr

end
-- ==== Proof.K.Obl1.lean ====
/-
  The main pipeline's body obligation: at every grid point each of the seven input windows' buffers holds the window's block (fetched there, or
  still there from the first point for the whole-array windows), the body leaves them in place, and the output buffer ends at the tile of those
  blocks, whatever it held.
-/
import proofs.«108652_j5557687681830_1_alg».proof.Proof.Gen.Kernel.Launch
import proofs.«108652_j5557687681830_1_alg».proof.Proof.Gen.Kernel.Skeleton
import proofs.«108652_j5557687681830_1_alg».proof.Proof.Gen.Kernel.Points
import proofs.«108652_j5557687681830_1_alg».proof.Proof.K.Data
import proofs.«108652_j5557687681830_1_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! Each input window's buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl)
      (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl)
      (fun t => by rw [after1_4]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl)
      (fun t => by rw [after1_5]; unfold Dat.blockOf blk1; rw [A_eq1]; try rfl) t d).trans
    (by unfold Dat.fetched Dat.blockOf blk1; rw [A_eq1]; try rfl)
theorem before1_6 (c : Dev nD) (t : Fin cfg1.N) (d) : (dat1 V c).before 6 t d = blk1 V c 6 t :=
  ((dat1 V c).before_in_eq_fetched 6 rfl (fun _ => rfl) (fun _ _ _ => rfl)
      (fun t => by rw [after1_6]; unfold Dat.blockOf blk1; rw [A_eq1]; try rfl) t d).trans
    (by unfold Dat.fetched Dat.blockOf blk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (main_body c Set.univ (grid1.coords t) _ _ _ _ _ _ _ _ _ _ _ _ _ _ _ _
    (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.K.Run.lean ====
/-
  The kernel program's run: @main is region 0, the host stretch, region 1. Each region is entered from "every unscoped buffer at the boundary's
  contents" and left at the next boundary's contents; at the end every unscoped buffer holds what the fold through @main computes. The four
  argument arrays are written by no host operation and only read (or passed by) by the regions, so they end as launched.
-/
import proofs.«108652_j5557687681830_1_alg».proof.Proof.Gen.Kernel.Launch
import proofs.«108652_j5557687681830_1_alg».proof.Proof.Gen.Kernel.Skeleton
import proofs.«108652_j5557687681830_1_alg».proof.Proof.Gen.Kernel.Points
import proofs.«108652_j5557687681830_1_alg».proof.Proof.K.Obl0
import proofs.«108652_j5557687681830_1_alg».proof.Proof.K.Obl1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a region's exit each of its arrays holds what the pipeline leaves and every other buffer what it held at entry. -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- `main_arg0` ends as launched: no host operation writes it, and a region only reads it or passes it by. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := W1_of_ne m c main_arg0 (by decide)
    _ = m ((c : Thread nD τ).loc main_arg0) := rfl

/-- `main_arg1` ends as launched: no host operation writes it, and a region only reads it or passes it by. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (V2 m) c).arrAt_in 1 rfl _).trans (A_eq1 (V2 m) c 1))
    _ = W1 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 0).trans (((dat0 (V0 m) c).arrAt_in 0 rfl _).trans (A_eq0 (V0 m) c 0))
    _ = m ((c : Thread nD τ).loc main_arg1) := rfl

/-- `main_arg2` ends as launched: no host operation writes it, and a region only reads it or passes it by. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := W1_of_ne m c main_arg2 (by decide)
    _ = m ((c : Thread nD τ).loc main_arg2) := rfl

/-- `main_arg3` ends as launched: no host operation writes it, and a region only reads it or passes it by. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the pseudo-random register at some state and the core owing nothing. -/
abbrev R (c : Dev nD) : sProp 𝕄 := iprop((∃ r, prngReg c r) ∗ ∃ W, owes (c : Thread nD τ) (0 : CellTallies nD τ sig Unit) W)
/-- The host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No operation of the host stretch allocates a buffer. -/
theorem hostOps1_noalloc : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debt: every unscoped buffer at the last boundary's contents, the register at some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- Region 0 over the thread state: its windows' arrays split out of the unscoped buffers at entry and put back at the exit contents; the
    pseudo-random register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its windows' arrays split out of the unscoped buffers at entry and put back at the exit contents; the
    pseudo-random register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segs : List (Pipeline.Seg (pcfgs (F := F)) adm (pdats m) () defs₀ 𝒱₀ L lv) :=
  [ .region (reg0 m),
    .host (hseg hostOps1 hostOps1_sub hostOps1_noalloc (W1 m)),
    .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every final state has every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Fr

end
-- ==== Proof.KI.Outs.lean ====
/-
  What each kernel body leaves in its output buffers, as explicit terms over the bodies' arithmetic.

  The statistics kernel keeps two rows of 128 running sums (the column sums of the features and of their squares). At the first grid point it
  stores the block's column sums; at every later point it reads the row it holds, adds the block's column sums and stores the result. The
  main kernel stores one 5000 × 255 tile computed from its seven input blocks. Each store covers its whole buffer, so the buffer after the
  body is the store's value: the canonical read-back of a one-piece list.
-/
import proofs.«108652_j5557687681830_1_alg».proof.Proof.Gen.KernelIdeal.Launch
import proofs.«108652_j5557687681830_1_alg».proof.Proof.Gen.KernelIdeal.Skeleton
import proofs.«108652_j5557687681830_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1 × 128 row. -/
abbrev rowRect : Rect S1x128 := Rect.unit (s := S1x128) ![0, 0] S1x128.size inb_S1x128_S1x128_0_0
/-- The whole 10000 × 128 block of the statistics kernel's input. -/
abbrev statRect : Rect S10000x128 := Rect.unit (s := S10000x128) ![0, 0] S10000x128.size inb_S10000x128_S10000x128_0_0
abbrev featRect : Rect S5000x128 := Rect.unit (s := S5000x128) ![0, 0] S5000x128.size inb_S5000x128_S5000x128_0_0
abbrev prevRect : Rect S5000x127 := Rect.unit (s := S5000x127) ![0, 0] S5000x127.size inb_S5000x127_S5000x127_0_0
abbrev w1Rect : Rect S128x128 := Rect.unit (s := S128x128) ![0, 0] S128x128.size inb_S128x128_S128x128_0_0
abbrev w2hRect : Rect S127x255 := Rect.unit (s := S127x255) ![0, 0] S127x255.size inb_S127x255_S127x255_0_0
abbrev w2aRect : Rect S128x255 := Rect.unit (s := S128x255) ![0, 0] S128x255.size inb_S128x255_S128x255_0_0
abbrev tileRect : Rect S5000x255 := Rect.unit (s := S5000x255) ![0, 0] S5000x255.size inb_S5000x255_S5000x255_0_0

/-- The sums row after the first point: the block's column sums. -/
def firstSum (x : Vec F S10000x128 .f32) : Vec F S1x128 .f32 :=
  View.canon [⟨rowRect, k0_pay1 (View.ld x statRect)⟩]
/-- The squares row after the first point: the column sums of the block's squares. -/
def firstSq (x : Vec F S10000x128 .f32) : Vec F S1x128 .f32 :=
  View.canon [⟨rowRect, k0_pay2 (View.ld x statRect)⟩]
/-- The sums row after a later point: the row held plus the block's column sums. -/
def nextSum (x : Vec F S10000x128 .f32) (a : Vec F S1x128 .f32) : Vec F S1x128 .f32 :=
  View.canon [⟨rowRect, k0_pay3 (View.ld x statRect) (View.ld a rowRect)⟩]
/-- The squares row after a later point. -/
def nextSq (x : Vec F S10000x128 .f32) (a : Vec F S1x128 .f32) : Vec F S1x128 .f32 :=
  View.canon [⟨rowRect, k0_pay4 (View.ld x statRect) (View.ld a rowRect)⟩]

/-- The main kernel's output tile from its seven input blocks (features, mean, inverse deviation, first weights transposed, previous
    embedding, and the two row blocks of the second weights transposed). -/
def tile (h : Vec F S5000x127 .f32) (agg : Vec F S5000x128 .f32) (mean inv : Vec F S1x128 .f32) (w1t : Vec F S128x128 .f32)
    (w2h : Vec F S127x255 .f32) (w2a : Vec F S128x255 .f32) : Vec F S5000x255 .f32 :=
  View.canon [⟨tileRect, k1_pay1 (View.ld agg featRect) (View.ld mean rowRect) (View.ld inv rowRect) (View.ld w1t w1Rect)
    (View.ld h prevRect) (View.ld w2h w2hRect) (View.ld w2a w2aRect)⟩]

theorem cover_row (p0 : Vec F S1x128 .f32) (y : S1x128.Idx) :
    ∃ pc ∈ ([⟨rowRect, p0⟩] : List (View.Piece (Elt F) S1x128 .f32)), y ∈ pc.1.set :=
  View.cover_of_tiled [⟨rowRect, p0⟩] S1x128.size (by rfl) y

theorem cover_tile (p0 : Vec F S5000x255 .f32) (y : S5000x255.Idx) :
    ∃ pc ∈ ([⟨tileRect, p0⟩] : List (View.Piece (Elt F) S5000x255 .f32)), y ∈ pc.1.set :=
  View.cover_of_tiled [⟨tileRect, p0⟩] S5000x255.size (by rfl) y

end Cert.KernelIdeal.Fr

end
-- ==== Proof.KI.Data.lean ====
/-
  The proof data of the two pipelines and the buffers' contents between @main's items.

  Pipeline 0 (the statistics kernel) walks 50 blocks of 10000 rows of the features. Its two output rows are written back at the last point only, so
  between points the staging buffers carry the running sums: what a row holds after point n is defined by recursion on n (the first point resets,
  each later point adds its block's column sums to what the point before left). Pipeline 1 (the main kernel) walks 100 blocks of 5000 rows; its
  inputs are only read, and the output tile at a point is a function of the point's input blocks.

  The contents of every buffer at each boundary of @main are a fold from the launch memory: region 0 changes its windows' arrays to what its
  write-backs leave, the host stretch applies its sixteen operations, region 1 changes its windows' arrays likewise.
-/
import proofs.«108652_j5557687681830_1_alg».proof.Proof.Gen.KernelIdeal.Launch
import proofs.«108652_j5557687681830_1_alg».proof.Proof.Gen.KernelIdeal.Skeleton
import proofs.«108652_j5557687681830_1_alg».proof.Proof.Gen.KernelIdeal.Points
import proofs.«108652_j5557687681830_1_alg».proof.Proof.KI.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Pipeline 0 -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sums row after the body at position `n`. -/
def sums0 (c : Dev nD) : (n : ℕ) → n < cfg0.N → Vec F S1x128 .f32
  | 0, hn => firstSum (blk0 V c 0 ⟨0, hn⟩)
  | n + 1, hn => nextSum (blk0 V c 0 ⟨n + 1, hn⟩) (sums0 c n (Nat.lt_of_succ_lt hn))

/-- The squares row after the body at position `n`. -/
def sqs0 (c : Dev nD) : (n : ℕ) → n < cfg0.N → Vec F S1x128 .f32
  | 0, hn => firstSq (blk0 V c 0 ⟨0, hn⟩)
  | n + 1, hn => nextSq (blk0 V c 0 ⟨n + 1, hn⟩) (sqs0 c n (Nat.lt_of_succ_lt hn))

theorem sums0_zero (c : Dev nD) (t : Fin cfg0.N) (h0 : t.val = 0) : sums0 V c t.val t.isLt = firstSum (blk0 V c 0 t) := by
  obtain ⟨n, hn⟩ := t
  cases n with
  | zero => rfl
  | succ n => exact absurd h0 (Nat.succ_ne_zero n)
theorem sums0_succ (c : Dev nD) (t : Fin cfg0.N) (h0 : t.val ≠ 0) :
    sums0 V c t.val t.isLt = nextSum (blk0 V c 0 t) (sums0 V c (t.val - 1) (Nat.lt_of_le_of_lt (Nat.sub_le _ _) t.isLt)) := by
  obtain ⟨n, hn⟩ := t
  cases n with
  | zero => exact absurd rfl h0
  | succ n => rfl
theorem sqs0_zero (c : Dev nD) (t : Fin cfg0.N) (h0 : t.val = 0) : sqs0 V c t.val t.isLt = firstSq (blk0 V c 0 t) := by
  obtain ⟨n, hn⟩ := t
  cases n with
  | zero => rfl
  | succ n => exact absurd h0 (Nat.succ_ne_zero n)
theorem sqs0_succ (c : Dev nD) (t : Fin cfg0.N) (h0 : t.val ≠ 0) :
    sqs0 V c t.val t.isLt = nextSq (blk0 V c 0 t) (sqs0 V c (t.val - 1) (Nat.lt_of_le_of_lt (Nat.sub_le _ _) t.isLt)) := by
  obtain ⟨n, hn⟩ := t
  cases n with
  | zero => exact absurd rfl h0
  | succ n => rfl

/-- Pipeline 0's proof data on core `c`: the arrays as the region finds them; after the body the input's buffer at its block and the two
    rows at the running sums; the scoped rest and the pseudo-random register as invariant; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => sums0 V c t.val t.isLt
    | ⟨2, _⟩ => sqs0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = sums0 V c t.val t.isLt := by dsimp only [dat0]
theorem after0_2 (c : Dev nD) (t : Fin cfg0.N) : (dat0 V c).after 2 t = sqs0 V c t.val t.isLt := by dsimp only [dat0]

/-! ## Pipeline 1 -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Pipeline 1's proof data on core `c`: each input's buffer at its block, the output's at the tile of the point's input blocks. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => tile (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t
    = tile (blk1 V c 0 t) (blk1 V c 1 t) (blk1 V c 2 t) (blk1 V c 3 t) (blk1 V c 4 t) (blk1 V c 5 t) (blk1 V c 6 t) := by dsimp only [dat1]

end Regions

/-! ## The buffers' contents at each boundary of @main -/

variable (m : (ℓ : Loc nD τ sig) → Buf (Elt F) ℓ)

/-- Core `c`'s buffers at launch. -/
abbrev W0 : Dev nD → Valuation τ sig (Elt F) := fun c b => m (c, b)
/-- The same read at the TensorCore's references: what region 0 finds. -/
abbrev V0 : (c : Dev nD) → (b : Ref sig .tc) → Buf (Elt F) ((c : Thread nD τ).loc b) := fun c b => W0 m c b
/-- After region 0: its windows' arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
/-- After the host stretch: what region 1 finds. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1: its windows' arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c

end Cert.KernelIdeal.Fr

end
-- ==== Proof.KI.Body0.lean ====
/-
  The statistics kernel's body, run on whole staging buffers, in its two cases.

  At the first grid point the first conditional is taken and the second is not: whatever the two output rows held, they end at the block's
  column sums and the column sums of its squares. At every later point it is the other way round: the rows are read, the block's sums added,
  and the results stored. In both cases the input block is left as it was.
-/
import proofs.«108652_j5557687681830_1_alg».proof.Proof.Gen.KernelIdeal.Launch
import proofs.«108652_j5557687681830_1_alg».proof.Proof.Gen.KernelIdeal.Skeleton
import proofs.«108652_j5557687681830_1_alg».proof.Proof.Gen.KernelIdeal.Points
import proofs.«108652_j5557687681830_1_alg».proof.Proof.KI.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the rows are overwritten with the block's column sums. -/
theorem stats_first (c : Dev nD) (E : Set ℕ) (i : grid0.Coords) (h1 : k0_cond1 i = 1#1) (h2 : ¬ k0_cond2 i = 1#1)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole)
    (x0 : Vec F S10000x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (firstSum x0)
            ∗ owns (c : Thread nD τ) arg3 fullShare (firstSq x0)) -∗ K ⟨⟩))
      ⊢ wp frame (wpE (defs₀ (F := F)) Variants.none c none) E (cc0__bn_stats_kernel i arg1 harg1 arg2 harg2 arg3 harg3) K := by
  simp only [cc0__bn_stats_kernel_eq_skeleton]; unfold cc0__bn_stats_kernel_skel
  unfold owns
  iintro ⟨⟨%f0, %hf0, H0⟩, ⟨%d1, %f1, -, H1⟩, ⟨%d2, %f2, -, H2⟩, Hk⟩
  subst hf0
  sl_exec (disch := first | exact h1 | exact h2)
  sl_step
  iapply Hk
  isplitl [H0]
  · iexists f0; isplitr; · ipureintro; rfl
    iexact H0
  isplitl [H1]
  · iexists _; isplitr
    swap; · iexact H1
    ipureintro
    exact View.read_writes_eq_canon _ _ _ (cover_row _)
  · iexists _; isplitr
    swap; · iexact H2
    ipureintro
    exact View.read_writes_eq_canon _ _ _ (cover_row _)

set_option maxHeartbeats 1000000 in
/-- A later point: the rows are read, the block's column sums added, the results stored. -/
theorem stats_next (c : Dev nD) (E : Set ℕ) (i : grid0.Coords) (h1 : ¬ k0_cond1 i = 1#1) (h2 : k0_cond2 i = 1#1)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole)
    (x0 : Vec F S10000x128 .f32) (a1 a2 : Vec F S1x128 .f32) (K : PUnit → sProp 𝕄) :
    iprop(owns (c : Thread nD τ) arg1 fullShare x0 ∗ owns (c : Thread nD τ) arg2 fullShare a1 ∗ owns (c : Thread nD τ) arg3 fullShare a2
        ∗ (iprop(owns (c : Thread nD τ) arg1 fullShare x0 ∗ owns (c : Thread nD τ) arg2 fullShare (nextSum x0 a1)
            ∗ owns (c : Thread nD τ) arg3 fullShare (nextSq x0 a2)) -∗ K ⟨⟩))
      ⊢ wp frame (wpE (defs₀ (F := F)) Variants.none c none) E (cc0__bn_stats_kernel i arg1 harg1 arg2 harg2 arg3 harg3) K := by
  simp only [cc0__bn_stats_kernel_eq_skeleton]; unfold cc0__bn_stats_kernel_skel
  unfold owns
  iintro ⟨⟨%f0, %hf0, H0⟩, ⟨%f1, %hf1, H1⟩, ⟨%f2, %hf2, H2⟩, Hk⟩
  subst hf0; subst hf1; subst hf2
  sl_exec (disch := first | exact h1 | exact h2)
  sl_step
  iapply Hk
  isplitl [H0]
  · iexists f0; isplitr; · ipureintro; rfl
    iexact H0
  isplitl [H1]
  · iexists _; isplitr
    swap; · iexact H1
    ipureintro
    exact View.read_writes_eq_canon _ _ _ (cover_row _)
  · iexists _; isplitr
    swap; · iexact H2
    ipureintro
    exact View.read_writes_eq_canon _ _ _ (cover_row _)

end Cert.KernelIdeal.Fr

end
-- ==== Proof.KI.Obl0.lean ====
/-
  The statistics pipeline's body obligation.

  At every grid point the body finds the input block in its buffer. At the first point the two rows hold anything and are reset; at a later point they
  hold what the point before left, because the rows are written back only after the last point. The two conditionals depend on the grid
  coordinate alone: the first holds exactly at point 0, the second exactly elsewhere, so no point leaves a row untouched.
-/
import proofs.«108652_j5557687681830_1_alg».proof.Proof.Gen.KernelIdeal.Launch
import proofs.«108652_j5557687681830_1_alg».proof.Proof.Gen.KernelIdeal.Skeleton
import proofs.«108652_j5557687681830_1_alg».proof.Proof.Gen.KernelIdeal.Points
import proofs.«108652_j5557687681830_1_alg».proof.Proof.KI.Data
import proofs.«108652_j5557687681830_1_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional holds at the first point only; the second at every other point. -/
theorem hc1 : ∀ t : Fin cfg0.N, k0_cond1 (grid0.coords t) = 1#1 ↔ t.val = 0 :=
  (by decide +kernel : ∀ t : Fin grid0.N, k0_cond1 (grid0.coords t) = 1#1 ↔ t.val = 0)
theorem hc2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two conditionals holds at every coordinate: no window is idle anywhere. -/
theorem live0 : ∀ (w : Fin cfg0.W) (i : grid0.Coords), cfg0.idle w i = false := by decide +kernel

section
variable (V : (c : Dev nD) → (b : Ref sig .tc) → Buf (Elt F) ((c : Thread nD τ).loc b))

/-- The input window's buffer holds its block at every point. -/
theorem before0_0 (c : Dev nD) (t : Fin cfg0.N) (d) : (dat0 V c).before 0 t d = blk0 V c 0 t :=
  ((dat0 V c).before_in_eq_fetched 0 rfl (live0 0) (fun _ _ _ => rfl)
      (fun t => by rw [after0_0]; unfold Dat.blockOf blk0; rw [A_eq0]; try rfl) t d).trans
    (by unfold Dat.fetched Dat.blockOf blk0; rw [A_eq0]; try rfl)

/-- After the first point the sums row holds what the point before left: it is not written back in between. -/
theorem before0_1_next (c : Dev nD) (t : Fin cfg0.N) (h0 : t.val ≠ 0) (d) :
    (dat0 V c).before 1 t d = sums0 V c (t.val - 1) (Nat.lt_of_le_of_lt (Nat.sub_le _ _) t.isLt) := by
  have hN : t.val < 50 := lt_of_lt_of_eq t.isLt (show cfg0.N = 50 from N_0)
  rw [Dat.before_out_kept _ 1 rfl t h0 (Bool.eq_false_iff.mpr fun h => by have := (flush0_1 _).mp h; dsimp only at this; omega)
    (live0 1) (fun _ _ => rfl)]
  dsimp only [dat0]
/-- The same for the squares row. -/
theorem before0_2_next (c : Dev nD) (t : Fin cfg0.N) (h0 : t.val ≠ 0) (d) :
    (dat0 V c).before 2 t d = sqs0 V c (t.val - 1) (Nat.lt_of_le_of_lt (Nat.sub_le _ _) t.isLt) := by
  have hN : t.val < 50 := lt_of_lt_of_eq t.isLt (show cfg0.N = 50 from N_0)
  rw [Dat.before_out_kept _ 2 rfl t h0 (Bool.eq_false_iff.mpr fun h => by have := (flush0_2 _).mp h; dsimp only at this; omega)
    (live0 2) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point, by cases on whether the point is the first. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [sums0_zero V c t h0, sqs0_zero V c t h0]
    iintro ⟨HΦ, Ho, ⟨%d0, H0⟩, ⟨%d1, H1⟩, ⟨%d2, H2⟩⟩
    iapply (stats_first c Set.univ (grid0.coords t) ((hc1 t).mpr h0) (fun h => ((hc2 t).mp h) h0) _ _ _ _ _ _ (blk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [sums0_succ V c t h0, sqs0_succ V c t h0]
    simp only [before0_1_next V c t h0, before0_2_next V c t h0]
    iintro ⟨HΦ, Ho, ⟨%d0, H0⟩, ⟨%d1, H1⟩, ⟨%d2, H2⟩⟩
    iapply (stats_next c Set.univ (grid0.coords t) (fun h => h0 ((hc1 t).mp h)) ((hc2 t).mpr h0) _ _ _ _ _ _ (blk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  repeat rw [live0]
  show bodyPre0 V c t ⊢ wp frame (wpE (defs₀ (F := F)) Variants.none c none) Set.univ (bodyAt0 t) (fun _ => bodyPost0 V c t)
  exact sound_body0 V c t

end

end Cert.KernelIdeal.Fr

end
-- ==== Proof.KI.Body1.lean ====
/-
  The main kernel's body, run on whole staging buffers: it reads its seven input blocks, leaves them as they were, and overwrites the output
  tile with the value computed from them.
-/
import proofs.«108652_j5557687681830_1_alg».proof.Proof.Gen.KernelIdeal.Launch
import proofs.«108652_j5557687681830_1_alg».proof.Proof.Gen.KernelIdeal.Skeleton
import proofs.«108652_j5557687681830_1_alg».proof.Proof.Gen.KernelIdeal.Points
import proofs.«108652_j5557687681830_1_alg».proof.Proof.KI.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body: the inputs kept, the output buffer at the tile of the input blocks. -/
theorem main_body (c : Dev nD) (E : Set ℕ) (i : grid1.Coords)
    (arg1 : Memref sig .tc .vmem S5000x127 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S127x255 .f32) (harg6 : arg6.IsWhole)
    (arg7 : Memref sig .tc .vmem S128x255 .f32) (harg7 : arg7.IsWhole) (arg8 : Memref sig .tc .vmem S5000x255 .f32) (harg8 : arg8.IsWhole)
    (x1 : Vec F S5000x127 .f32) (x2 : Vec F S5000x128 .f32) (x3 x4 : Vec F S1x128 .f32) (x5 : Vec F S128x128 .f32)
    (x6 : Vec F S127x255 .f32) (x7 : Vec F S128x255 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (tile x1 x2 x3 x4 x5 x6 x7)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8) K := by
  simp only [cc1__main_kernel_eq_skeleton]; unfold cc1__main_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_tile _)

end Cert.KernelIdeal.Fr

end
-- ==== Proof.KI.Obl1.lean ====
/-
  The main pipeline's body obligation: at every grid point each of the seven input windows' buffers holds the window's block (fetched there, or
  still there from the first point for the whole-array windows), the body leaves them in place, and the output buffer ends at the tile of those
  blocks, whatever it held.
-/
import proofs.«108652_j5557687681830_1_alg».proof.Proof.Gen.KernelIdeal.Launch
import proofs.«108652_j5557687681830_1_alg».proof.Proof.Gen.KernelIdeal.Skeleton
import proofs.«108652_j5557687681830_1_alg».proof.Proof.Gen.KernelIdeal.Points
import proofs.«108652_j5557687681830_1_alg».proof.Proof.KI.Data
import proofs.«108652_j5557687681830_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! Each input window's buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl)
      (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl)
      (fun t => by rw [after1_4]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl)
      (fun t => by rw [after1_5]; unfold Dat.blockOf blk1; rw [A_eq1]; try rfl) t d).trans
    (by unfold Dat.fetched Dat.blockOf blk1; rw [A_eq1]; try rfl)
theorem before1_6 (c : Dev nD) (t : Fin cfg1.N) (d) : (dat1 V c).before 6 t d = blk1 V c 6 t :=
  ((dat1 V c).before_in_eq_fetched 6 rfl (fun _ => rfl) (fun _ _ _ => rfl)
      (fun t => by rw [after1_6]; unfold Dat.blockOf blk1; rw [A_eq1]; try rfl) t d).trans
    (by unfold Dat.fetched Dat.blockOf blk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (main_body c Set.univ (grid1.coords t) _ _ _ _ _ _ _ _ _ _ _ _ _ _ _ _
    (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KI.Run.lean ====
/-
  The kernel program's run: @main is region 0, the host stretch, region 1. Each region is entered from "every unscoped buffer at the boundary's
  contents" and left at the next boundary's contents; at the end every unscoped buffer holds what the fold through @main computes. The four
  argument arrays are written by no host operation and only read (or passed by) by the regions, so they end as launched.
-/
import proofs.«108652_j5557687681830_1_alg».proof.Proof.Gen.KernelIdeal.Launch
import proofs.«108652_j5557687681830_1_alg».proof.Proof.Gen.KernelIdeal.Skeleton
import proofs.«108652_j5557687681830_1_alg».proof.Proof.Gen.KernelIdeal.Points
import proofs.«108652_j5557687681830_1_alg».proof.Proof.KI.Obl0
import proofs.«108652_j5557687681830_1_alg».proof.Proof.KI.Obl1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a region's exit each of its arrays holds what the pipeline leaves and every other buffer what it held at entry. -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- `main_arg0` ends as launched: no host operation writes it, and a region only reads it or passes it by. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := W1_of_ne m c main_arg0 (by decide)
    _ = m ((c : Thread nD τ).loc main_arg0) := rfl

/-- `main_arg1` ends as launched: no host operation writes it, and a region only reads it or passes it by. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (V2 m) c).arrAt_in 1 rfl _).trans (A_eq1 (V2 m) c 1))
    _ = W1 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 0).trans (((dat0 (V0 m) c).arrAt_in 0 rfl _).trans (A_eq0 (V0 m) c 0))
    _ = m ((c : Thread nD τ).loc main_arg1) := rfl

/-- `main_arg2` ends as launched: no host operation writes it, and a region only reads it or passes it by. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := W1_of_ne m c main_arg2 (by decide)
    _ = m ((c : Thread nD τ).loc main_arg2) := rfl

/-- `main_arg3` ends as launched: no host operation writes it, and a region only reads it or passes it by. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the pseudo-random register at some state and the core owing nothing. -/
abbrev R (c : Dev nD) : sProp 𝕄 := iprop((∃ r, prngReg c r) ∗ ∃ W, owes (c : Thread nD τ) (0 : CellTallies nD τ sig Unit) W)
/-- The host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No operation of the host stretch allocates a buffer. -/
theorem hostOps1_noalloc : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debt: every unscoped buffer at the last boundary's contents, the register at some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- Region 0 over the thread state: its windows' arrays split out of the unscoped buffers at entry and put back at the exit contents; the
    pseudo-random register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its windows' arrays split out of the unscoped buffers at entry and put back at the exit contents; the
    pseudo-random register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segs : List (Pipeline.Seg (pcfgs (F := F)) adm (pdats m) () defs₀ 𝒱₀ L lv) :=
  [ .region (reg0 m),
    .host (hseg hostOps1 hostOps1_sub hostOps1_noalloc (W1 m)),
    .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every final state has every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Fr

end
-- ==== Proof.Spec.lean ====
/-
  The function both programs compute, written once over plain index types.

  Inputs: `H` (500000 × 127), `A` (500000 × 128, the features that are batch-normalised), `W1` (128 × 128) and
  `W2` (255 × 255), all as functions into the extended reals. Per column `k` of `A`: the batch mean, the variance,
  the normalised entry `(A p k - mean k) · (var k + ε)^(-1/2)`; then a linear layer with `W1` and a clamp at zero;
  then the row `(H p, act p)` of length 127 + 128 = 255 against the rows of `W2`, written as the sum over the first
  127 columns plus the sum over the last 128.

  The variance is a parameter of the output: one program computes it as E[x²] − (E x)² (`varK`), the other as
  E[(x − E x)²] (`varR`). The two agree for real data (not at infinities: the identity needs cancellation), and
  that equation is the only law joining the two sides.
-/
import Idealize.ShloMosaic.PureOps.Ideal
import Idealize.ShloMosaic.Lib.ValueIdx

noncomputable section

namespace Cert.Spec

open Idealize.ShloMosaic Idealize.ShloMosaic.ValueIdx

/-- The batch size 500000 as the f32 word both programs divide by. -/
def nLit : EReal := Ideal.ofBits .f32 0x48F42400#32
/-- The batch-norm epsilon: the f32 word nearest 1e-5, the same word in both programs. -/
def epsLit : EReal := Ideal.ofBits .f32 0x3727C5AC#32

/-- A rank-2 array read by its two coordinates. -/
def mat {a b : ℕ} (x : (⟨2, ![a, b]⟩ : Shape).Idx → EReal) : Fin a → Fin b → EReal := fun p q => x (ix2 p q)

variable (H : Fin 500000 → Fin 127 → EReal) (A : Fin 500000 → Fin 128 → EReal)
  (W1 : Fin 128 → Fin 128 → EReal) (W2 : Fin 255 → Fin 255 → EReal)

/-- The batch mean of column `k`. -/
def mean (k : Fin 128) : EReal := Ideal.div (∑ n : Fin 500000, A n k) nLit
/-- The variance as the mean of the squares less the square of the mean. -/
def varK (k : Fin 128) : EReal := Ideal.div (∑ n : Fin 500000, A n k * A n k) nLit - mean A k * mean A k
/-- The variance as the mean of the squared deviations from the mean. -/
def varR (k : Fin 128) : EReal := Ideal.div (∑ n : Fin 500000, (A n k - mean A k) * (A n k - mean A k)) nLit
/-- The normalised entry, for a given variance. -/
def normed (var : Fin 128 → EReal) (p : Fin 500000) (k : Fin 128) : EReal :=
  (A p k - mean A k) * Ideal.rsqrt (var k + epsLit)
/-- The first linear layer (row `f` of `W1` against the normalised row `p`) clamped at zero. -/
def act (var : Fin 128 → EReal) (p : Fin 500000) (f : Fin 128) : EReal :=
  max (∑ k : Fin 128, normed A var p k * W1 f k) 0
/-- The output entry `(p, g)`: row `g` of `W2` against the row `(H p, act p)`, split at column 127. -/
def out (var : Fin 128 → EReal) (p : Fin 500000) (g : Fin 255) : EReal :=
  (∑ f : Fin 127, H p f * W2 g ⟨f.val, by have := f.isLt; omega⟩)
    + ∑ f : Fin 128, act A W1 var p f * W2 g ⟨127 + f.val, by have := f.isLt; omega⟩

end Cert.Spec

end
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.PayIdx.lean ====
/-
  The kernel bodies' arithmetic read at an index, over the extended reals.

  The statistics body sums its [10000, 128] block, and the block's entrywise square, down the rows, giving one
  number per column, and, for every block after the first, adds them to the running column sums. The main body takes a
  [5000, 128] block, subtracts the column means and multiplies by the column scales (both [1, 128] rows repeated
  down the block), multiplies by a [128, 128] matrix, clamps at zero, and adds the product of the [5000, 127] block
  with a [127, 255] matrix to the product of the clamped block with a [128, 255] matrix. Over the extended reals a
  narrowing of the format is the identity, a sum down an axis is a finite sum, and a matrix product into a zero
  accumulator is the finite sum of the products of entries.
-/
import proofs.«108652_j5557687681830_1_alg».proof.Proof.Gen.KernelIdeal.Skeleton
import proofs.«108652_j5557687681830_1_alg».proof.Proof.LibAxisFolds
import proofs.«108652_j5557687681830_1_alg».proof.Proof.LibPlainDot
import Idealize.ShloMosaic.Lib.ValueIdx
import Idealize.ShloMosaic.Lib.ValueLayout
import Idealize.ShloMosaic.Lib.Pipeline.Value

noncomputable section

namespace Cert.KernelIdeal.PayIdx

open Cert.KernelIdeal Cert.KernelIdeal.Gen Idealize.ShloMosaic Idealize.ShloMosaic.ValueIdx

/-- The column sums of the block: entry `(0, q)` is the sum of column `q`. -/
theorem k0_pay1_apply (x : Vec Ideal S10000x128 .f32) (q : Fin 128) :
    Gen.k0_pay1 (F := Ideal) x (ix2 0 q) = ∑ r : Fin 10000, x (ix2 r q) := by
  unfold Gen.k0_pay1
  refine (shapeCast_a_1a_apply _ _ 0 q).trans ?_
  exact Cert.Lib.AxisFolds.firstSum_apply _ _ _ _ _ q

/-- The column sums of the squares. -/
theorem k0_pay2_apply (x : Vec Ideal S10000x128 .f32) (q : Fin 128) :
    Gen.k0_pay2 (F := Ideal) x (ix2 0 q) = ∑ r : Fin 10000, x (ix2 r q) * x (ix2 r q) := by
  unfold Gen.k0_pay2
  refine (shapeCast_a_1a_apply _ _ 0 q).trans ?_
  exact Cert.Lib.AxisFolds.firstSum_apply _ _ _ _ _ q

/-- The running column sums plus this block's. -/
theorem k0_pay3_apply (x : Vec Ideal S10000x128 .f32) (acc : Vec Ideal S1x128 .f32) (q : Fin 128) :
    Gen.k0_pay3 (F := Ideal) x acc (ix2 0 q) = acc (ix2 0 q) + ∑ r : Fin 10000, x (ix2 r q) := by
  unfold Gen.k0_pay3
  refine (addf_apply _ _ _).trans ?_
  rw [shapeCast_self, k0_pay1_apply]

/-- The running column sums of squares plus this block's. -/
theorem k0_pay4_apply (x : Vec Ideal S10000x128 .f32) (acc : Vec Ideal S1x128 .f32) (q : Fin 128) :
    Gen.k0_pay4 (F := Ideal) x acc (ix2 0 q) = acc (ix2 0 q) + ∑ r : Fin 10000, x (ix2 r q) * x (ix2 r q) := by
  unfold Gen.k0_pay4
  refine (addf_apply _ _ _).trans ?_
  rw [shapeCast_self, k0_pay2_apply]

/-- The centred and scaled entry: the block less the row of means, times the row of scales. -/
theorem normed_apply (agg : FVec Ideal S5000x128 .f32) (mean inv : FVec Ideal S1x128 .f32)
    (hb : S1x128.Broadcasts S5000x128) (p : Fin 5000) (k : Fin 128) :
    mulf (F := Ideal) (φ := .f32) (subf agg (broadcastTo S5000x128 mean hb)) (broadcastTo S5000x128 inv hb) (ix2 p k)
      = (agg (ix2 p k) - mean (ix2 0 k)) * inv (ix2 0 k) := by
  refine (mulf_apply _ _ _).trans ?_
  refine congrArg₂ (· * ·) ((subf_apply _ _ _).trans ?_) (broadcastTo_1b_ab_apply inv hb p k)
  exact congrArg (agg (ix2 p k) - ·) (broadcastTo_1b_ab_apply mean hb p k)

/-- The zero word denotes zero. -/
theorem zero_word : (Scalar.ofBits (F := Ideal) .f32 0x00000000#32 : EReal) = 0 := Ideal.ofBits_zero_f32

/-- The main body's output entry `(p, g)`. -/
theorem k1_pay1_apply (agg : Vec Ideal S5000x128 .f32) (mean inv : Vec Ideal S1x128 .f32) (w1t : Vec Ideal S128x128 .f32)
    (h : Vec Ideal S5000x127 .f32) (w2th : Vec Ideal S127x255 .f32) (w2ta : Vec Ideal S128x255 .f32) (p : Fin 5000) (g : Fin 255) :
    Gen.k1_pay1 (F := Ideal) agg mean inv w1t h w2th w2ta (ix2 p g)
      = (∑ f : Fin 127, h (ix2 p f) * w2th (ix2 f g))
        + ∑ f : Fin 128, max (∑ k : Fin 128, ((agg (ix2 p k) - mean (ix2 0 k)) * inv (ix2 0 k)) * w1t (ix2 k f)) 0 * w2ta (ix2 f g) := by
  unfold Gen.k1_pay1
  simp only [shapeCast_self]
  refine (addf_apply _ _ _).trans ?_
  refine congrArg₂ (· + ·) ?_ ?_
  · exact Cert.PlainDot.matmul_zero_apply _ rfl _ _ p g
  · refine (Cert.PlainDot.matmul_zero_apply _ rfl _ _ p g).trans ?_
    refine Finset.sum_congr rfl fun f _ => ?_
    refine congrArg (· * w2ta (ix2 f g)) ?_
    refine (maximumf_apply _ _ _).trans ?_
    refine congrArg₂ max ?_ zero_word
    refine (Cert.PlainDot.matmul_zero_apply _ rfl _ _ p f).trans ?_
    exact Finset.sum_congr rfl fun k _ => congrArg (· * w1t (ix2 k f)) (normed_apply agg mean inv _ p k)

end Cert.KernelIdeal.PayIdx

end
-- ==== Proof.KI.Val0.lean ====
/-
  The statistics of the features and the arrays the host prepares for the main kernel, read at an index.

  The statistics kernel walks the 500000 rows of the features in 50 blocks of 10000. After point n its two rows hold, per column, the sum of
  the entries, and of their squares, over the first 10000 (n + 1) rows: the first point stores the block's column sums, each later point adds
  its block's to what the row held. Summing the column, continued by zero past the last row, over an initial segment of the naturals makes
  the step one splitting of a range, and after the last point the segment is the whole column. Only the last point writes the rows back,
  and the one block of each row is the whole array.

  The host then divides both rows by the batch size, subtracts the squared mean from the mean of squares, adds epsilon, takes the
  reciprocal root, transposes the first weights, and transposes the second weights and cuts them into rows 0 to 126 and rows 127 to 254.
  Entry by entry these are the mean, the scale (1 / sqrt (var + eps)), the first weights at the swapped index and the second weights at the swapped index
  with the row offset. The two inputs of the main kernel that nothing writes hold their launch contents.
-/
import proofs.«108652_j5557687681830_1_alg».proof.Proof.KI.Data
import proofs.«108652_j5557687681830_1_alg».proof.Proof.Spec
import proofs.«108652_j5557687681830_1_alg».proof.Proof.PayIdx
import Idealize.ShloMosaic.Lib.Pipeline.Value
import Idealize.ShloMosaic.Lib.StableHlo.Run
import Idealize.ShloMosaic.Lib.ValueIdx
import Idealize.ShloMosaic.Lib.ValueLayout
import Idealize.ShloMosaic.Lib.IdealHost
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

theorem hz2 : (![0, 0] : Fin 2 → Nat) = fun _ => 0 := funext fun a => by fin_cases a <;> rfl

/-- The statistics kernel's input window walks the row blocks in order: block t at point t, the one column block. -/
theorem idx0_0 : ∀ t : Fin cfg0.N, win0_0.index t (0 : Fin 2) = t.val ∧ win0_0.index t (1 : Fin 2) = 0 :=
  (by decide +kernel : ∀ t : Fin grid0.N, _)

variable (m : (ℓ : Loc nD τ sig) → Buf (Elt Ideal) ℓ) (c : Dev nD)

/-- The features read by coordinates. -/
abbrev feat : Fin 500000 → Fin 128 → EReal :=
  Cert.Spec.mat (a := 500000) (b := 128) (m ((c.tc : Thread nD τ).loc main_arg1))

/-- Column q of a 500000-row matrix as a sequence, continued by zero past the last row. -/
def colExt (A : Fin 500000 → Fin 128 → EReal) (q : Fin 128) (n : ℕ) : EReal := if h : n < 500000 then A ⟨n, h⟩ q else 0

/-- The input block at point t as a 10000 × 128 array. -/
abbrev blkR (t : Fin cfg0.N) : Vec Ideal S10000x128 .f32 := blk0 (V0 m) c 0 t

/-- Entry (r, q) of the input block at point t is entry (10000 t + r, q) of the features. -/
theorem blk0_apply (t : Fin cfg0.N) (r : Fin 10000) (q : Fin 128) (i : S500000x128.Idx)
    (h0 : (i 0).val = t.val * 10000 + r.val) (h1 : (i 1).val = q.val) :
    blkR m c t (ix2 r q) = (m ((c.tc : Thread nD τ).loc main_arg1) : S500000x128.Idx → EReal) i := by
  unfold blkR blk0
  rw [View.read_apply]
  show (m ((c.tc : Thread nD τ).loc main_arg1) : S500000x128.Idx → EReal) (((cfg0.win 0).blk t).view.emb (ix2 r q)) = _
  refine congrArg _ ?_
  obtain ⟨e0, e1⟩ := idx0_0 t
  funext a; apply Fin.ext
  match a with
  | ⟨0, _⟩ => show win0_0.index t (0 : Fin 2) * 10000 + 1 * r.val = (i 0).val; rw [e0, h0]; omega
  | ⟨1, _⟩ => show win0_0.index t (1 : Fin 2) * 128 + 1 * q.val = (i 1).val; rw [e1, h1]; omega

theorem blk0_ext (t : Fin cfg0.N) (r : Fin 10000) (q : Fin 128) :
    blkR m c t (ix2 r q) = colExt (feat m c) q (t.val * 10000 + r.val) := by
  have ht : t.val < 50 := lt_of_lt_of_eq t.isLt N_0
  have hlt : t.val * 10000 + r.val < 500000 := by have := r.isLt; omega
  unfold colExt
  rw [dif_pos hlt]
  exact blk0_apply m c t r q (ix2 ⟨_, hlt⟩ q) rfl rfl

/-- The block's column sum is the sum of the column over the block's rows. -/
theorem blk0_sum (t : Fin cfg0.N) (q : Fin 128) :
    ∑ r : Fin 10000, blkR m c t (ix2 r q)
      = ∑ x ∈ Finset.range 10000, colExt (feat m c) q (t.val * 10000 + x) :=
  (Finset.sum_congr rfl fun r _ => blk0_ext m c t r q).trans
    (Fin.sum_univ_eq_sum_range (fun x => colExt (feat m c) q (t.val * 10000 + x)) 10000)

theorem blk0_sumsq (t : Fin cfg0.N) (q : Fin 128) :
    ∑ r : Fin 10000, blkR m c t (ix2 r q) * blkR m c t (ix2 r q)
      = ∑ x ∈ Finset.range 10000, colExt (feat m c) q (t.val * 10000 + x) * colExt (feat m c) q (t.val * 10000 + x) :=
  (Finset.sum_congr rfl fun r _ => by rw [blk0_ext m c t r q]).trans
    (Fin.sum_univ_eq_sum_range (fun x => colExt (feat m c) q (t.val * 10000 + x) * colExt (feat m c) q (t.val * 10000 + x)) 10000)

/-- The running sums row after point n holds, per column, the sum over the first 10000 (n + 1) rows. -/
theorem sums0_value (q : Fin 128) : ∀ (n : ℕ) (hn : n < cfg0.N),
    (sums0 (V0 m) c n hn : S1x128.Idx → EReal) (ix2 0 q) = ∑ x ∈ Finset.range ((n + 1) * 10000), colExt (feat m c) q x
  | 0, hn => by
    show (firstSum (blk0 (V0 m) c 0 ⟨0, hn⟩) : S1x128.Idx → EReal) (ix2 0 q) = _
    unfold firstSum
    rw [View.canon_unit_zero hz2, View.ld_unit_zero (S := S10000x128) hz2]
    refine (PayIdx.k0_pay1_apply _ q).trans ?_
    refine (blk0_sum m c ⟨0, hn⟩ q).trans ?_
    simp only [Nat.zero_mul, Nat.zero_add, Nat.one_mul]
  | n + 1, hn => by
    show (nextSum (blk0 (V0 m) c 0 ⟨n + 1, hn⟩) (sums0 (V0 m) c n (Nat.lt_of_succ_lt hn)) : S1x128.Idx → EReal) (ix2 0 q) = _
    unfold nextSum
    rw [View.canon_unit_zero hz2, View.ld_unit_zero (S := S10000x128) hz2, View.ld_unit_zero (S := S1x128) hz2]
    refine (PayIdx.k0_pay3_apply _ _ q).trans ?_
    rw [sums0_value q n, blk0_sum, show (n + 1 + 1) * 10000 = (n + 1) * 10000 + 10000 by ring, Finset.sum_range_add]

theorem sqs0_value (q : Fin 128) : ∀ (n : ℕ) (hn : n < cfg0.N),
    (sqs0 (V0 m) c n hn : S1x128.Idx → EReal) (ix2 0 q)
      = ∑ x ∈ Finset.range ((n + 1) * 10000), colExt (feat m c) q x * colExt (feat m c) q x
  | 0, hn => by
    show (firstSq (blk0 (V0 m) c 0 ⟨0, hn⟩) : S1x128.Idx → EReal) (ix2 0 q) = _
    unfold firstSq
    rw [View.canon_unit_zero hz2, View.ld_unit_zero (S := S10000x128) hz2]
    refine (PayIdx.k0_pay2_apply _ q).trans ?_
    refine (blk0_sumsq m c ⟨0, hn⟩ q).trans ?_
    simp only [Nat.zero_mul, Nat.zero_add, Nat.one_mul]
  | n + 1, hn => by
    show (nextSq (blk0 (V0 m) c 0 ⟨n + 1, hn⟩) (sqs0 (V0 m) c n (Nat.lt_of_succ_lt hn)) : S1x128.Idx → EReal) (ix2 0 q) = _
    unfold nextSq
    rw [View.canon_unit_zero hz2, View.ld_unit_zero (S := S10000x128) hz2, View.ld_unit_zero (S := S1x128) hz2]
    refine (PayIdx.k0_pay4_apply _ _ q).trans ?_
    rw [sqs0_value q n, blk0_sumsq, show (n + 1 + 1) * 10000 = (n + 1) * 10000 + 10000 by ring, Finset.sum_range_add]

/-- Over all 500000 rows the continued column sums to the column's sum. -/
theorem colExt_sum (A : Fin 500000 → Fin 128 → EReal) (q : Fin 128) :
    ∑ x ∈ Finset.range 500000, colExt A q x = ∑ n : Fin 500000, A n q :=
  (Fin.sum_univ_eq_sum_range (colExt A q) 500000).symm.trans
    (Finset.sum_congr rfl fun n _ => by unfold colExt; rw [dif_pos n.isLt])

theorem colExt_sumsq (A : Fin 500000 → Fin 128 → EReal) (q : Fin 128) :
    ∑ x ∈ Finset.range 500000, colExt A q x * colExt A q x = ∑ n : Fin 500000, A n q * A n q :=
  (Fin.sum_univ_eq_sum_range (fun x => colExt A q x * colExt A q x) 500000).symm.trans
    (Finset.sum_congr rfl fun n _ => by unfold colExt; rw [dif_pos n.isLt])

/-! ## The two rows after the statistics kernel -/

/-- The two output windows stay on their one block. -/
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)

/-- The last point of the statistics kernel's grid. -/
abbrev lastPt : Fin cfg0.N := ⟨49, (by decide : 49 < grid0.N)⟩

/-- The one block of the sums window is the whole row. -/
theorem read_row1 (t : Fin cfg0.N) (G : Vec Ideal S1x128 .f32) : ((cfg0.win 1).blk t).view.read (Elt Ideal) G = G := by
  funext y
  rw [View.read_apply]
  show G (((cfg0.win 1).blk t).view.emb y) = G y
  refine congrArg G ?_
  obtain ⟨e0, e1⟩ := idx0_1 t
  funext a; apply Fin.ext
  match a with
  | ⟨0, _⟩ => show win0_1.index t (0 : Fin 2) * 1 + 1 * (y 0).val = (y 0).val; rw [e0]; omega
  | ⟨1, _⟩ => show win0_1.index t (1 : Fin 2) * 128 + 1 * (y 1).val = (y 1).val; rw [e1]; omega

theorem read_row2 (t : Fin cfg0.N) (G : Vec Ideal S1x128 .f32) : ((cfg0.win 2).blk t).view.read (Elt Ideal) G = G := by
  funext y
  rw [View.read_apply]
  show G (((cfg0.win 2).blk t).view.emb y) = G y
  refine congrArg G ?_
  obtain ⟨e0, e1⟩ := idx0_2 t
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- After the statistics kernel the sums array holds the running sums after the last point: the one write-back, at the last
    point, writes the whole row. -/
theorem sumsRow_final : (dat0 (V0 m) c).arrAt 1 cfg0.N = sums0 (V0 m) c 49 lastPt.isLt :=
  (dat0 (V0 m) c).arrAt_eq_of_cover 1 (sums0 (V0 m) c 49 lastPt.isLt) (fun t hf => by
      have h49 : t.val = 49 := by have := (flush0_1 t).mp hf; have := lt_of_lt_of_eq t.isLt N_0; omega
      obtain rfl : t = lastPt := Fin.ext h49
      show (cfg0.win 1).cut (grid0.coords lastPt) ((dat0 (V0 m) c).after 1 lastPt) = _
      rw [after0_1]
      exact (read_row1 lastPt _).symm)
    (fun i => ⟨lastPt, (flush0_1 lastPt).mpr rfl, by
      show i ∈ ((View.whole main_v0_0).slice (win0_1.rect lastPt)).set
      rw [View.set_slice_whole, Rect.mem_set_unit]
      intro a
      have h0 : (i 0 : Nat) < 1 := (i 0).isLt
      have h1 : (i 1 : Nat) < 128 := (i 1).isLt
      match a with
      | ⟨0, _⟩ =>
        show win0_1.index lastPt 0 * win0_1.size 0 ≤ (i 0 : Nat) ∧ (i 0 : Nat) < win0_1.index lastPt 0 * win0_1.size 0 + win0_1.xsize (grid0.coords lastPt) 0
        rw [show win0_1.index lastPt 0 * win0_1.size 0 = 0 from by decide +kernel, show win0_1.xsize (grid0.coords lastPt) 0 = 1 from by decide +kernel]; omega
      | ⟨1, _⟩ =>
        show win0_1.index lastPt 1 * win0_1.size 1 ≤ (i 1 : Nat) ∧ (i 1 : Nat) < win0_1.index lastPt 1 * win0_1.size 1 + win0_1.xsize (grid0.coords lastPt) 1
        rw [show win0_1.index lastPt 1 * win0_1.size 1 = 0 from by decide +kernel, show win0_1.xsize (grid0.coords lastPt) 1 = 128 from by decide +kernel]; omega⟩)

theorem sqsRow_final : (dat0 (V0 m) c).arrAt 2 cfg0.N = sqs0 (V0 m) c 49 lastPt.isLt :=
  (dat0 (V0 m) c).arrAt_eq_of_cover 2 (sqs0 (V0 m) c 49 lastPt.isLt) (fun t hf => by
      have h49 : t.val = 49 := by have := (flush0_2 t).mp hf; have := lt_of_lt_of_eq t.isLt N_0; omega
      obtain rfl : t = lastPt := Fin.ext h49
      show (cfg0.win 2).cut (grid0.coords lastPt) ((dat0 (V0 m) c).after 2 lastPt) = _
      rw [after0_2]
      exact (read_row2 lastPt _).symm)
    (fun i => ⟨lastPt, (flush0_2 lastPt).mpr rfl, by
      show i ∈ ((View.whole main_v0_1).slice (win0_2.rect lastPt)).set
      rw [View.set_slice_whole, Rect.mem_set_unit]
      intro a
      have h0 : (i 0 : Nat) < 1 := (i 0).isLt
      have h1 : (i 1 : Nat) < 128 := (i 1).isLt
      match a with
      | ⟨0, _⟩ =>
        show win0_2.index lastPt 0 * win0_2.size 0 ≤ (i 0 : Nat) ∧ (i 0 : Nat) < win0_2.index lastPt 0 * win0_2.size 0 + win0_2.xsize (grid0.coords lastPt) 0
        rw [show win0_2.index lastPt 0 * win0_2.size 0 = 0 from by decide +kernel, show win0_2.xsize (grid0.coords lastPt) 0 = 1 from by decide +kernel]; omega
      | ⟨1, _⟩ =>
        show win0_2.index lastPt 1 * win0_2.size 1 ≤ (i 1 : Nat) ∧ (i 1 : Nat) < win0_2.index lastPt 1 * win0_2.size 1 + win0_2.xsize (grid0.coords lastPt) 1
        rw [show win0_2.index lastPt 1 * win0_2.size 1 = 0 from by decide +kernel, show win0_2.xsize (grid0.coords lastPt) 1 = 128 from by decide +kernel]; omega⟩)

/-- The sums row and the squares row as the statistics kernel leaves them. -/
abbrev sumsArr : Vec Ideal S1x128 .f32 := V1 (F := Ideal) m c main_v0_0
abbrev sqsArr : Vec Ideal S1x128 .f32 := V1 (F := Ideal) m c main_v0_1

/-- After the statistics kernel, entry (0, q) of the sums array is column q's sum over all rows. -/
theorem v0_0_value (q : Fin 128) : sumsArr m c (ix2 0 q) = ∑ n : Fin 500000, feat m c n q := by
  show (V1 (F := Ideal) m c main_v0_0 : Vec Ideal S1x128 .f32) (ix2 0 q) = _
  have e : (V1 (F := Ideal) m c main_v0_0 : Vec Ideal S1x128 .f32) = sums0 (V0 m) c 49 lastPt.isLt :=
    (W1_arr m c 1).trans (sumsRow_final m c)
  rw [e, sums0_value m c q 49 lastPt.isLt]
  exact colExt_sum (feat m c) q

/-- and of the squares array, the sum of column q's squares. -/
theorem v0_1_value (q : Fin 128) : sqsArr m c (ix2 0 q) = ∑ n : Fin 500000, feat m c n q * feat m c n q := by
  show (V1 (F := Ideal) m c main_v0_1 : Vec Ideal S1x128 .f32) (ix2 0 q) = _
  have e : (V1 (F := Ideal) m c main_v0_1 : Vec Ideal S1x128 .f32) = sqs0 (V0 m) c 49 lastPt.isLt :=
    (W1_arr m c 2).trans (sqsRow_final m c)
  rw [e, sqs0_value m c q 49 lastPt.isLt]
  exact colExt_sumsq (feat m c) q

/-! ## The host operations between the two kernels -/

/-- The batch size spread over a row, and the epsilon. -/
abbrev nRow : Vec Ideal S1x128 .f32 := broadcastInDim S1x128 ![] bcast_S_S1x128 (constant (F := Ideal) S_ .f32 0x48F42400#32)
abbrev epsRow : Vec Ideal S1x128 .f32 := broadcastInDim S1x128 ![] bcast_S_S1x128 (constant (F := Ideal) S_ .f32 0x3727C5AC#32)

theorem nRow_apply (j : S1x128.Idx) : nRow j = Cert.Spec.nLit := broadcastInDim_scalar_apply _ _ j
theorem epsRow_apply (j : S1x128.Idx) : epsRow j = Cert.Spec.epsLit := broadcastInDim_scalar_apply _ _ j

/-- The mean row is the sums row over the batch size. -/
theorem v2_eq : (V2 (F := Ideal) m c main_v2 : Vec Ideal S1x128 .f32)
    = Host.divf (F := Ideal) (s := S1x128) (φ := .f32) (sumsArr m c) nRow := by
  show StableHlo.after hostOps1 (W1 m c) (Proc.devRef .tc main_v2) = _
  after_results

/-- The scale row: the reciprocal root of the mean of squares less the squared mean, plus epsilon. -/
theorem v9_eq : (V2 (F := Ideal) m c main_v9 : Vec Ideal S1x128 .f32)
    = Host.rsqrt (F := Ideal) (s := S1x128) (φ := .f32) (addf (subf (Host.divf (F := Ideal) (sqsArr m c) nRow)
        (mulf (Host.divf (F := Ideal) (sumsArr m c) nRow) (Host.divf (F := Ideal) (sumsArr m c) nRow))) epsRow) := by
  show StableHlo.after hostOps1 (W1 m c) (Proc.devRef .tc main_v9) = _
  after_results

theorem mean_value (k : Fin 128) :
    (V2 (F := Ideal) m c main_v2 : S1x128.Idx → EReal) (ix2 0 k) = Cert.Spec.mean (feat m c) k := by
  rw [v2_eq]
  show Ideal.div (sumsArr m c (ix2 0 k)) (nRow (ix2 0 k)) = _
  rw [v0_0_value, nRow_apply]
  rfl

theorem inv_value (k : Fin 128) :
    (V2 (F := Ideal) m c main_v9 : S1x128.Idx → EReal) (ix2 0 k) = Ideal.rsqrt (Cert.Spec.varK (feat m c) k + Cert.Spec.epsLit) := by
  rw [v9_eq]
  show Ideal.rsqrt ((Ideal.div (sqsArr m c (ix2 0 k)) (nRow (ix2 0 k))
      - Ideal.div (sumsArr m c (ix2 0 k)) (nRow (ix2 0 k)) * Ideal.div (sumsArr m c (ix2 0 k)) (nRow (ix2 0 k))) + epsRow (ix2 0 k)) = _
  rw [v0_0_value, v0_1_value, nRow_apply, epsRow_apply]
  rfl

/-- Buffers the statistics kernel has no window on keep their launch contents. -/
theorem arg0_V1 : V1 (F := Ideal) m c main_arg0 = m ((c.tc : Thread nD τ).loc main_arg0) := W1_of_ne m c main_arg0 (by decide)
theorem arg2_V1 : V1 (F := Ideal) m c main_arg2 = m ((c.tc : Thread nD τ).loc main_arg2) := W1_of_ne m c main_arg2 (by decide)
theorem arg3_V1 : V1 (F := Ideal) m c main_arg3 = m ((c.tc : Thread nD τ).loc main_arg3) := W1_of_ne m c main_arg3 (by decide)
/-- The features are only read by it. -/
theorem arg1_V1 : V1 (F := Ideal) m c main_arg1 = m ((c.tc : Thread nD τ).loc main_arg1) :=
  (W1_arr m c 0).trans ((dat0 (V0 m) c).arrAt_in 0 rfl _)

/-- The first weights transposed. -/
theorem v10_eq : (V2 (F := Ideal) m c main_v10 : Vec Ideal S128x128 .f32)
    = transpose S128x128 [1, 0] (m ((c.tc : Thread nD τ).loc main_arg2) : Vec Ideal S128x128 .f32) transposes_S128x128_S128x128_1_0 := by
  show StableHlo.after hostOps1 (W1 m c) (Proc.devRef .tc main_v10) = _
  after_results
  exact congrArg (fun x => transpose S128x128 [1, 0] x transposes_S128x128_S128x128_1_0) (arg2_V1 m c)

/-- The second weights transposed, rows 0 to 126 and rows 127 to 254. -/
theorem v12_eq : (V2 (F := Ideal) m c main_v12 : Vec Ideal S127x255 .f32)
    = extractStridedSlice S127x255 ![0, 0] (transpose S255x255 [1, 0] (m ((c.tc : Thread nD τ).loc main_arg3) : Vec Ideal S255x255 .f32)
        transposes_S255x255_S255x255_1_0) slices_S255x255_S127x255_0_0 := by
  show StableHlo.after hostOps1 (W1 m c) (Proc.devRef .tc main_v12) = _
  after_results
  exact congrArg (fun x => extractStridedSlice S127x255 ![0, 0] (transpose S255x255 [1, 0] x transposes_S255x255_S255x255_1_0)
    slices_S255x255_S127x255_0_0) (arg3_V1 m c)

theorem v13_eq : (V2 (F := Ideal) m c main_v13 : Vec Ideal S128x255 .f32)
    = extractStridedSlice S128x255 ![127, 0] (transpose S255x255 [1, 0] (m ((c.tc : Thread nD τ).loc main_arg3) : Vec Ideal S255x255 .f32)
        transposes_S255x255_S255x255_1_0) slices_S255x255_S128x255_127_0 := by
  show StableHlo.after hostOps1 (W1 m c) (Proc.devRef .tc main_v13) = _
  after_results
  exact congrArg (fun x => extractStridedSlice S128x255 ![127, 0] (transpose S255x255 [1, 0] x transposes_S255x255_S255x255_1_0)
    slices_S255x255_S128x255_127_0) (arg3_V1 m c)

theorem w1t_value (k f : Fin 128) :
    (V2 (F := Ideal) m c main_v10 : S128x128.Idx → EReal) (ix2 k f)
      = (m ((c.tc : Thread nD τ).loc main_arg2) : S128x128.Idx → EReal) (ix2 f k) := by
  rw [v10_eq]
  exact transpose_ix2_apply _ _ k f

theorem w2h_value (f : Fin 127) (g : Fin 255) :
    (V2 (F := Ideal) m c main_v12 : S127x255.Idx → EReal) (ix2 f g)
      = (m ((c.tc : Thread nD τ).loc main_arg3) : S255x255.Idx → EReal) (ix2 g ⟨f.val, by have := f.isLt; omega⟩) := by
  rw [v12_eq]
  refine (slice2_axis0_apply (n0 := 255) (n1 := 255) (m := 127) 0 _ slices_S255x255_S127x255_0_0 f g ⟨f.val, by have := f.isLt; omega⟩ (Nat.zero_add _).symm).trans ?_
  exact transpose_ix2_apply _ _ _ g

theorem w2a_value (f : Fin 128) (g : Fin 255) :
    (V2 (F := Ideal) m c main_v13 : S128x255.Idx → EReal) (ix2 f g)
      = (m ((c.tc : Thread nD τ).loc main_arg3) : S255x255.Idx → EReal) (ix2 g ⟨127 + f.val, by have := f.isLt; omega⟩) := by
  rw [v13_eq]
  refine (slice2_axis0_apply (n0 := 255) (n1 := 255) (m := 128) 127 _ slices_S255x255_S128x255_127_0 f g ⟨127 + f.val, by have := f.isLt; omega⟩ rfl).trans ?_
  exact transpose_ix2_apply _ _ _ g

/-- The host operations leave the two kernel inputs they do not write as they were at launch. -/
theorem arg0_V2 : V2 (F := Ideal) m c main_arg0 = m ((c.tc : Thread nD τ).loc main_arg0) := by
  show StableHlo.after hostOps1 (W1 m c) (Proc.devRef .tc main_arg0) = _
  after_results
  exact arg0_V1 m c

theorem arg1_V2 : V2 (F := Ideal) m c main_arg1 = m ((c.tc : Thread nD τ).loc main_arg1) := by
  show StableHlo.after hostOps1 (W1 m c) (Proc.devRef .tc main_arg1) = _
  after_results
  exact arg1_V1 m c

end Cert.KernelIdeal.Fr

end
-- ==== Proof.KI.Val1.lean ====
/-
  The main kernel's output array, entry by entry.

  The kernel walks 100 blocks of 5000 rows. At each point it writes one 5000 × 255 tile computed from the point's blocks of the two
  row-blocked inputs and from five arrays it reads whole. The tile's entry (y, g) is a function of row y of the two blocks and of the whole
  arrays; row y of the block at point t is row 5000 t + y of the array, so the tile is the block at t of one function of the seven arrays.
  The 100 blocks tile the 500000 rows (row p lies in the block of point p / 5000), hence the array ends holding that function everywhere.
-/
import proofs.«108652_j5557687681830_1_alg».proof.Proof.KI.Data
import proofs.«108652_j5557687681830_1_alg».proof.Proof.PayIdx
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Entry (p, g) of the main kernel's output as a function of its seven input arrays: row p of the previous embedding against column g of
    the first row block of the second weights, plus the clamped first layer of the normalised row p of the features against column g of the
    second row block. -/
def outEntry (H : S500000x127.Idx → EReal) (A : S500000x128.Idx → EReal) (mean inv : S1x128.Idx → EReal)
    (w1t : S128x128.Idx → EReal) (w2h : S127x255.Idx → EReal) (w2a : S128x255.Idx → EReal) (p : Fin 500000) (g : Fin 255) : EReal :=
  (∑ f : Fin 127, H (ix2 p f) * w2h (ix2 f g))
    + ∑ f : Fin 128, max (∑ k : Fin 128, ((A (ix2 p k) - mean (ix2 0 k)) * inv (ix2 0 k)) * w1t (ix2 k f)) 0 * w2a (ix2 f g)

/-- The same as one array. -/
def outArr (H : S500000x127.Idx → EReal) (A : S500000x128.Idx → EReal) (mean inv : S1x128.Idx → EReal)
    (w1t : S128x128.Idx → EReal) (w2h : S127x255.Idx → EReal) (w2a : S128x255.Idx → EReal) : S500000x255.Idx → EReal :=
  fun i => outEntry H A mean inv w1t w2h w2a (i 0) (i 1)

/-- The entry, spelt out. -/
theorem outEntry_def (H : S500000x127.Idx → EReal) (A : S500000x128.Idx → EReal) (mean inv : S1x128.Idx → EReal)
    (w1t : S128x128.Idx → EReal) (w2h : S127x255.Idx → EReal) (w2a : S128x255.Idx → EReal) (p : Fin 500000) (g : Fin 255) :
    outEntry H A mean inv w1t w2h w2a p g
      = (∑ f : Fin 127, H (ix2 p f) * w2h (ix2 f g))
        + ∑ f : Fin 128, max (∑ k : Fin 128, ((A (ix2 p k) - mean (ix2 0 k)) * inv (ix2 0 k)) * w1t (ix2 k f)) 0 * w2a (ix2 f g) := rfl

theorem hz : (![0, 0] : Fin 2 → Nat) = fun _ => 0 := funext fun a => by fin_cases a <;> rfl

/-- The tile's arithmetic at an index of the tile. -/
theorem pay_entry (agg : Vec Ideal S5000x128 .f32) (mean inv : Vec Ideal S1x128 .f32) (w1t : Vec Ideal S128x128 .f32)
    (h : Vec Ideal S5000x127 .f32) (w2h : Vec Ideal S127x255 .f32) (w2a : Vec Ideal S128x255 .f32) (j : S5000x255.Idx) :
    Gen.k1_pay1 (F := Ideal) agg mean inv w1t h w2h w2a j
      = (∑ f : Fin 127, h (ix2 (j 0) f) * w2h (ix2 f (j 1)))
        + ∑ f : Fin 128, max (∑ k : Fin 128, ((agg (ix2 (j 0) k) - mean (ix2 0 k)) * inv (ix2 0 k)) * w1t (ix2 k f)) 0 * w2a (ix2 f (j 1)) :=
  (congrArg (Gen.k1_pay1 (F := Ideal) agg mean inv w1t h w2h w2a) (eq_ix2 j)).trans
    (Cert.KernelIdeal.PayIdx.k1_pay1_apply agg mean inv w1t h w2h w2a (j 0) (j 1))

section
variable (V : (c : Dev nD) → (b : Ref sig .tc) → Buf (Elt Ideal) ((c : Thread nD τ).loc b))

/-- The index maps of region 1, decided over the grid: the row-blocked windows sit at block row t, every other block index is 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

end

section
variable (V : (c : Dev nD) → (b : Ref sig .tc) → Buf (Elt Ideal) ((c : Thread nD τ).loc b))

/-- Row y of the previous embedding's block at point t is row 5000 t + y of the array. -/
theorem blk1_0_apply (c : Dev nD) (t : Fin cfg1.N) (y : Fin 5000) (f : Fin 127) (i : S500000x127.Idx)
    (h0 : (i 0).val = t.val * 5000 + y.val) (h1 : (i 1).val = f.val) :
    (blk1 V c 0 t : Vec Ideal S5000x127 .f32) (ix2 y f) = (V c main_arg0 : S500000x127.Idx → EReal) i := by
  obtain ⟨e0, e1, -⟩ := idx1 t
  unfold blk1
  rw [View.read_apply]
  show V c main_arg0 _ = V c main_arg0 _
  congr 1
  funext a
  apply Fin.ext
  match a with
  | ⟨0, _⟩ => show win1_0.index t 0 * 5000 + 1 * y.val = (i 0).val; rw [e0, h0]; omega
  | ⟨1, _⟩ => show win1_0.index t 1 * 127 + 1 * f.val = (i 1).val; rw [e1, h1]; omega

/-- Row y of the features' block at point t is row 5000 t + y of the array. -/
theorem blk1_1_apply (c : Dev nD) (t : Fin cfg1.N) (y : Fin 5000) (k : Fin 128) (i : S500000x128.Idx)
    (h0 : (i 0).val = t.val * 5000 + y.val) (h1 : (i 1).val = k.val) :
    (blk1 V c 1 t : Vec Ideal S5000x128 .f32) (ix2 y k) = (V c main_arg1 : S500000x128.Idx → EReal) i := by
  obtain ⟨-, -, e0, e1, -⟩ := idx1 t
  unfold blk1
  rw [View.read_apply]
  show V c main_arg1 _ = V c main_arg1 _
  congr 1
  funext a
  apply Fin.ext
  match a with
  | ⟨0, _⟩ => show win1_1.index t 0 * 5000 + 1 * y.val = (i 0).val; rw [e0, h0]; omega
  | ⟨1, _⟩ => show win1_1.index t 1 * 128 + 1 * k.val = (i 1).val; rw [e1, h1]; omega

/-- The block of a window over a whole array is the array: the means, -/
theorem blk1_2_eq (c : Dev nD) (t : Fin cfg1.N) :
    (blk1 V c 2 t : Vec Ideal S1x128 .f32) = (V c main_v2 : S1x128.Idx → EReal) := by
  obtain ⟨-, -, -, -, e0, e1, -⟩ := idx1 t
  funext i
  unfold blk1
  rw [View.read_apply]
  show V c main_v2 _ = V c main_v2 _
  congr 1
  funext a
  apply Fin.ext
  match a with
  | ⟨0, _⟩ => show win1_2.index t 0 * 1 + 1 * (i 0).val = (i 0).val; rw [e0]; omega
  | ⟨1, _⟩ => show win1_2.index t 1 * 128 + 1 * (i 1).val = (i 1).val; rw [e1]; omega

/-- the inverse deviations, -/
theorem blk1_3_eq (c : Dev nD) (t : Fin cfg1.N) :
    (blk1 V c 3 t : Vec Ideal S1x128 .f32) = (V c main_v9 : S1x128.Idx → EReal) := by
  obtain ⟨-, -, -, -, -, -, e0, e1, -⟩ := idx1 t
  funext i
  unfold blk1
  rw [View.read_apply]
  show V c main_v9 _ = V c main_v9 _
  congr 1
  funext a
  apply Fin.ext
  match a with
  | ⟨0, _⟩ => show win1_3.index t 0 * 1 + 1 * (i 0).val = (i 0).val; rw [e0]; omega
  | ⟨1, _⟩ => show win1_3.index t 1 * 128 + 1 * (i 1).val = (i 1).val; rw [e1]; omega

/-- the first weights transposed, -/
theorem blk1_4_eq (c : Dev nD) (t : Fin cfg1.N) :
    (blk1 V c 4 t : Vec Ideal S128x128 .f32) = (V c main_v10 : S128x128.Idx → EReal) := by
  obtain ⟨-, -, -, -, -, -, -, -, e0, e1, -⟩ := idx1 t
  funext i
  unfold blk1
  rw [View.read_apply]
  show V c main_v10 _ = V c main_v10 _
  congr 1
  funext a
  apply Fin.ext
  match a with
  | ⟨0, _⟩ => show win1_4.index t 0 * 128 + 1 * (i 0).val = (i 0).val; rw [e0]; omega
  | ⟨1, _⟩ => show win1_4.index t 1 * 128 + 1 * (i 1).val = (i 1).val; rw [e1]; omega

/-- the first 127 rows of the second weights transposed, -/
theorem blk1_5_eq (c : Dev nD) (t : Fin cfg1.N) :
    (blk1 V c 5 t : Vec Ideal S127x255 .f32) = (V c main_v12 : S127x255.Idx → EReal) := by
  obtain ⟨-, -, -, -, -, -, -, -, -, -, e0, e1, -⟩ := idx1 t
  funext i
  unfold blk1
  rw [View.read_apply]
  show V c main_v12 _ = V c main_v12 _
  congr 1
  funext a
  apply Fin.ext
  match a with
  | ⟨0, _⟩ => show win1_5.index t 0 * 127 + 1 * (i 0).val = (i 0).val; rw [e0]; omega
  | ⟨1, _⟩ => show win1_5.index t 1 * 255 + 1 * (i 1).val = (i 1).val; rw [e1]; omega

/-- and its last 128 rows. -/
theorem blk1_6_eq (c : Dev nD) (t : Fin cfg1.N) :
    (blk1 V c 6 t : Vec Ideal S128x255 .f32) = (V c main_v13 : S128x255.Idx → EReal) := by
  obtain ⟨-, -, -, -, -, -, -, -, -, -, -, -, e0, e1, -⟩ := idx1 t
  funext i
  unfold blk1
  rw [View.read_apply]
  show V c main_v13 _ = V c main_v13 _
  congr 1
  funext a
  apply Fin.ext
  match a with
  | ⟨0, _⟩ => show win1_6.index t 0 * 128 + 1 * (i 0).val = (i 0).val; rw [e0]; omega
  | ⟨1, _⟩ => show win1_6.index t 1 * 255 + 1 * (i 1).val = (i 1).val; rw [e1]; omega

end

/-- Two indices built from coordinates with the same values are the same. -/
theorem ix2_congr {n0 n1 : Nat} (a a' : Fin n0) (b b' : Fin n1) (ha : a.val = a'.val) (hb : b.val = b'.val) :
    ix2 a b = ix2 a' b' := by
  rw [Fin.ext ha, Fin.ext hb]

section
variable (V : (c : Dev nD) → (b : Ref sig .tc) → Buf (Elt Ideal) ((c : Thread nD τ).loc b))

/-- What point t writes back is the block at t of the one array. -/
theorem flushed_eq (c : Dev nD) (t : Fin cfg1.N) :
    (dat1 V c).flushed 7 t = ((cfg1.win 7).blk t).view.read (Elt Ideal)
      (outArr (V c main_arg0) (V c main_arg1) (V c main_v2) (V c main_v9) (V c main_v10) (V c main_v12) (V c main_v13)) := by
  show (cfg1.win 7).cut (grid1.coords t) ((dat1 V c).after 7 t) = _
  rw [after1_7]
  unfold tile
  rw [View.canon_unit_zero hz]
  simp only [View.ld_unit_zero (S := S5000x128) hz, View.ld_unit_zero (S := S5000x127) hz, View.ld_unit_zero (S := S1x128) hz,
    View.ld_unit_zero (S := S128x128) hz, View.ld_unit_zero (S := S127x255) hz, View.ld_unit_zero (S := S128x255) hz]
  funext j
  obtain ⟨-, -, -, -, -, -, -, -, -, -, -, -, -, -, e0, e1⟩ := idx1 t
  refine (pay_entry _ _ _ _ _ _ _ _).trans ?_
  show _ = outArr (V c main_arg0) (V c main_arg1) (V c main_v2) (V c main_v9) (V c main_v10) (V c main_v12) (V c main_v13)
    (((cfg1.win 7).blk t).view.emb j)
  unfold outArr outEntry
  have r0 : ((((cfg1.win 7).blk t).view.emb j) 0).val = t.val * 5000 + (j 0).val := by
    show win1_7.index t 0 * 5000 + 1 * (j 0).val = _
    rw [e0]; omega
  have r1 : ((((cfg1.win 7).blk t).view.emb j) 1).val = (j 1).val := by
    show win1_7.index t 1 * 255 + 1 * (j 1).val = _
    rw [e1]; omega
  rw [blk1_2_eq V c t, blk1_3_eq V c t, blk1_4_eq V c t, blk1_5_eq V c t, blk1_6_eq V c t]
  refine congrArg₂ (· + ·) (Finset.sum_congr rfl fun f _ => ?_) (Finset.sum_congr rfl fun f _ => ?_)
  · refine congrArg₂ (· * ·) ?_ (congrArg _ (ix2_congr _ _ _ _ rfl r1.symm))
    exact blk1_0_apply V c t _ f _ r0 rfl
  · refine congrArg₂ (· * ·) (congrArg (max · 0) (Finset.sum_congr rfl fun k _ => ?_)) (congrArg _ (ix2_congr _ _ _ _ rfl r1.symm))
    refine congrArg₂ (· * ·) (congrArg₂ (· * ·) (congrArg₂ (· - ·) ?_ rfl) rfl) rfl
    exact blk1_1_apply V c t _ k _ r0 rfl

/-- Row p of the output lies in the block of point p / 5000, and every point writes its block back. -/
theorem cover1 (i : S500000x255.Idx) :
    ∃ t : Fin cfg1.N, (cfg1.win 7).flush t = true ∧ i ∈ ((cfg1.win 7).blk t).view.set := by
  have hN : grid1.N = 100 := N_1
  have hi0 : (i 0).val < 500000 := (i 0).isLt
  have hi1 : (i 1).val < 255 := (i 1).isLt
  have ht : (i 0).val / 5000 < cfg1.N := by
    show (i 0).val / 5000 < grid1.N
    rw [hN]; omega
  refine ⟨⟨(i 0).val / 5000, ht⟩, flush1_7 _, ?_⟩
  obtain ⟨-, -, -, -, -, -, -, -, -, -, -, -, -, -, e0, e1⟩ := idx1 ⟨(i 0).val / 5000, ht⟩
  show i ∈ ((View.whole main_v14).slice (win1_7.rect ⟨(i 0).val / 5000, ht⟩)).set
  rw [View.set_slice_whole, Rect.mem_set_unit]
  intro a
  match a with
  | ⟨0, _⟩ =>
    show win1_7.index ⟨(i 0).val / 5000, ht⟩ 0 * 5000 ≤ (i 0).val ∧ (i 0).val < win1_7.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win1_7.index ⟨(i 0).val / 5000, ht⟩ 1 * 255 ≤ (i 1).val ∧ (i 1).val < win1_7.index ⟨(i 0).val / 5000, ht⟩ 1 * 255 + 255
    rw [e1]; omega

/-- The output array after region 1, whole. -/
theorem arr1_7_eq (c : Dev nD) :
    (dat1 V c).arrAt 7 cfg1.N
      = outArr (V c main_arg0) (V c main_arg1) (V c main_v2) (V c main_v9) (V c main_v10) (V c main_v12) (V c main_v13) :=
  (dat1 V c).arrAt_eq_of_cover 7 _ (fun t _ => flushed_eq V c t) cover1

/-- The output array after region 1, entry by entry. -/
theorem tile_value (c : Dev nD) (p : Fin 500000) (g : Fin 255) :
    ((dat1 V c).arrAt 7 cfg1.N : S500000x255.Idx → EReal) (ix2 p g)
      = outEntry (V c main_arg0) (V c main_arg1) (V c main_v2) (V c main_v9) (V c main_v10) (V c main_v12) (V c main_v13) p g := by
  rw [arr1_7_eq V c]
  rfl
end

end Cert.KernelIdeal.Fr

end
-- ==== Proof.KI.KVal.lean ====
/-
  The kernel program's result buffer, entry by entry, is the shared output formula at the variance E[x²] − (E x)².

  The result buffer is region 1's output array: the tile formula at the contents region 1 finds. Those contents are the arguments h and the
  features (untouched by region 0 and the host stretch), the mean and the inverse deviation the host stretch computes from region 0's column
  sums, the first weights transposed and the two row blocks of the second weights transposed; reading each where the formula reads it gives
  the specification's terms.
-/
import proofs.«108652_j5557687681830_1_alg».proof.Proof.KI.Val0
import proofs.«108652_j5557687681830_1_alg».proof.Proof.KI.Val1
import proofs.«108652_j5557687681830_1_alg».proof.Proof.Spec

noncomputable section

namespace Cert.KernelIdeal.Fr

open Cert.KernelIdeal Cert.KernelIdeal.Gen
open Idealize.ShloMosaic Idealize.ShloMosaic.TcCoe Idealize.ShloMosaic.ValueIdx Idealize.SL.Sem

theorem out_value (m : (ℓ : Loc nD τ sig) → Buf (Elt Ideal) ℓ) (c : Dev nD) (p : Fin 500000) (g : Fin 255) :
    (W3 (F := Ideal) m c (Proc.devRef .tc main_v14) : S500000x255.Idx → EReal) (ix2 p g)
      = Cert.Spec.out (Cert.Spec.mat (m ((c.tc : Thread nD τ).loc main_arg0))) (Cert.Spec.mat (m ((c.tc : Thread nD τ).loc main_arg1)))
          (Cert.Spec.mat (m ((c.tc : Thread nD τ).loc main_arg2))) (Cert.Spec.mat (m ((c.tc : Thread nD τ).loc main_arg3)))
          (Cert.Spec.varK (Cert.Spec.mat (m ((c.tc : Thread nD τ).loc main_arg1)))) p g := by
  have e : (W3 (F := Ideal) m c (Proc.devRef .tc main_v14) : S500000x255.Idx → EReal)
      = ((dat1 (F := Ideal) (V2 m) c).arrAt 7 cfg1.N : S500000x255.Idx → EReal) := W3_arr m c 7
  rw [e]
  refine (tile_value (V2 m) c p g).trans ?_
  rw [outEntry_def, arg0_V2, arg1_V2]
  unfold Cert.Spec.out Cert.Spec.act Cert.Spec.normed
  refine congrArg₂ (· + ·) (Finset.sum_congr rfl fun f _ => ?_) (Finset.sum_congr rfl fun f _ => ?_)
  · exact congrArg (fun x : EReal => Cert.Spec.mat (m ((c.tc : Thread nD τ).loc main_arg0)) p f * x) (w2h_value m c f g)
  · refine congrArg₂ (fun x y : EReal => x * y) (congrArg (fun x : EReal => max x 0) (Finset.sum_congr rfl fun k _ => ?_)) (w2a_value m c f g)
    refine congrArg₂ (fun x y : EReal => x * y) (congrArg₂ (fun x y : EReal => x * y) (congrArg (fun x : EReal => Cert.Spec.mat (m ((c.tc : Thread nD τ).loc main_arg1)) p k - x) (mean_value m c k)) (inv_value m c k)) (w1t_value m c k f)

end Cert.KernelIdeal.Fr

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.RefRun.lean ====
/-
  The reference program's run, read back.

  The reference is a straight line of 44 host operations once its three outlined functions (the variance with its
  guard, the guard's select, the clamp at zero) are unfolded at their calls. Its run from any memory ends with the
  result buffer at the composed pure term of those operations over the four arguments, the arguments unchanged.
  The composed term is named stage by stage: the column sums, the mean row, the centred array, the divisor, the
  guarded variance row, the normalised array, the first linear layer, its clamp, the joined rows, the output.
-/
import proofs.«108652_j5557687681830_1_alg».proof.ReferenceIdeal
import proofs.«108652_j5557687681830_1_alg».proof.Proof.LibHostCalls
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.Lib.HostCalls (ofBuf_toBuf)

variable {F : FTy → Type} [FloatOps F] [Facts]
open Facts₀ Facts

/-! ## The composed term, stage by stage -/

/-- The scalar zero word. -/
def zeroS : FVec F S_ .f32 := constant S_ .f32 0x00000000#32
/-- The scalar 500000 word. -/
def nS : FVec F S_ .f32 := constant S_ .f32 0x48F42400#32
/-- The column sums of an array: the host sum over axis 0 from the zero word. -/
def colSum (x : FVec F S500000x128 .f32) : FVec F S128 .f32 :=
  Host.reduceAdd x zeroS reducesTo_S500000x128_S128_d0 h_S_
/-- A vector of 128 as a row, divided entrywise by the row of a scalar. -/
def rowDiv (v : FVec F S128 .f32) (d : FVec F S_ .f32) : FVec F S1x128 .f32 :=
  Host.divf (broadcastInDim S1x128 ![1] bcast_S128_S1x128_1 v) (broadcastInDim S1x128 ![] bcast_S_S1x128 d)
/-- The mean row: column sums over 500000. -/
def refMean (agg : FVec F S500000x128 .f32) : FVec F S1x128 .f32 := rowDiv (colSum agg) nS
/-- The array less its mean row, the row spread over the 500000 rows. -/
def refCentered (agg : FVec F S500000x128 .f32) : FVec F S500000x128 .f32 :=
  subf agg (broadcastInDim S500000x128 ![0, 1] bcast_S1x128_S500000x128_0_1 (refMean agg))
/-- The variance's divisor: 500000 less the integer zero converted. -/
def refN : FVec F S_ .f32 := subf nS (sitofp .f32 (constantI S_ 32 0#32))
/-- The unguarded variance row: column sums of the squared deviations over the divisor. -/
def refVarRaw (agg : FVec F S500000x128 .f32) : FVec F S1x128 .f32 :=
  rowDiv (colSum (mulf (refCentered agg) (refCentered agg))) refN
/-- The guard: is the divisor positive. -/
def refGuard : IVec S_ 1 := cmpf .ogt (refN (F := F)) zeroS
/-- The variance row: the unguarded one where the guard holds, the NaN word elsewhere. -/
def refVar (agg : FVec F S500000x128 .f32) : FVec F S1x128 .f32 :=
  select (broadcastInDim S1x128 ![] bcast_S_S1x128 (refGuard (F := F))) (refVarRaw agg)
    (broadcastInDim S1x128 ![] bcast_S_S1x128 (id (constant S_ .f32 0x7FC00000#32 : FVec F S_ .f32)))
/-- The row of reciprocal square roots of variance plus epsilon. -/
def refRstd (agg : FVec F S500000x128 .f32) : FVec F S1x128 .f32 :=
  Host.rsqrt (addf (refVar agg) (broadcastInDim S1x128 ![] bcast_S_S1x128 (constant S_ .f32 0x3727C5AC#32)))
/-- The normalised array. -/
def refNormed (agg : FVec F S500000x128 .f32) : FVec F S500000x128 .f32 :=
  mulf (refCentered agg) (broadcastInDim S500000x128 ![0, 1] bcast_S1x128_S500000x128_0_1 (refRstd agg))
/-- The first linear layer. -/
def refLin (agg : FVec F S500000x128 .f32) (w1 : FVec F S128x128 .f32) : FVec F S500000x128 .f32 :=
  Host.dotGeneral dot_S500000x128_S128x128_S500000x128_1_1_0_0_n_n none (refNormed agg) w1
/-- Its clamp at zero. -/
def refAct (agg : FVec F S500000x128 .f32) (w1 : FVec F S128x128 .f32) : FVec F S500000x128 .f32 :=
  maximumf (refLin agg w1) (broadcastInDim S500000x128 ![] bcast_S_S500000x128 zeroS)
/-- The rows of the first argument joined with the clamped rows. -/
def refCat (h : FVec F S500000x127 .f32) (agg : FVec F S500000x128 .f32) (w1 : FVec F S128x128 .f32) : FVec F S500000x255 .f32 :=
  concatenate S500000x255 1 [⟨S500000x127, h⟩, ⟨S500000x128, refAct agg w1⟩] concatenates_S500000x127_S500000x128_S500000x255_d1
/-- The reference's result as a pure term of its four arguments. -/
def refOut (h : FVec F S500000x127 .f32) (agg : FVec F S500000x128 .f32) (w1 : FVec F S128x128 .f32) (w2 : FVec F S255x255 .f32) :
    FVec F S500000x255 .f32 :=
  Host.dotGeneral dot_S500000x255_S255x255_S500000x255_1_1_0_0_n_n none (refCat h agg w1) w2

/-! ## The operations in order, the calls unfolded -/

/-- The 44 operations: seven of the program's own, the variance function's twenty (into its call record's buffers),
    the guard function's three, nine of the program's own, the clamp function's three, and the last two. -/
abbrev ops : List (HloOp τ sig (Elt F)) :=
  [ nullary main_cst (constant S_ .f32 0x00000000#32),
    binary main_arg1 main_cst main_v0 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    unary main_v0 main_v1 (broadcastInDim S1x128 ![1] bcast_S128_S1x128_1 : (⟨S128, .f32⟩ : BufTy).Contents (Elt F) → (⟨S1x128, .f32⟩ : BufTy).Contents (Elt F)),
    nullary main_cst_0 (constant S_ .f32 0x48F42400#32),
    unary main_cst_0 main_v2 (broadcastInDim S1x128 ![] bcast_S_S1x128 : (⟨S_, .f32⟩ : BufTy).Contents (Elt F) → (⟨S1x128, .f32⟩ : BufTy).Contents (Elt F)),
    binary main_v1 main_v2 main_v3 (Host.divf : (⟨S1x128, .f32⟩ : BufTy).Contents (Elt F) → (⟨S1x128, .f32⟩ : BufTy).Contents (Elt F) → (⟨S1x128, .f32⟩ : BufTy).Contents (Elt F)),
    nullary main_c (constantI S_ 32 0#32),
    TRef.nullary main_call0.cst (constant S_ .f32 0x00000000#32),
    TRef.binary (.of main_arg1 : TRef sig ⟨S500000x128, .f32⟩) main_call0.cst main_call0.v0 (fun x v => Host.reduceAdd x v reducesTo_S500000x128_S128_d0 h_S_),
    TRef.unary main_call0.v0 main_call0.v1 (broadcastInDim S1x128 ![1] bcast_S128_S1x128_1),
    TRef.nullary main_call0.cst_0 (constant S_ .f32 0x48F42400#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S500000x128 ![0, 1] bcast_S1x128_S500000x128_0_1),
    TRef.binary (.of main_arg1 : TRef sig ⟨S500000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x48F42400#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S500000x128_S128_d0 h_S_),
    TRef.unary main_call0.v9 main_call0.v10 (broadcastInDim S1x128 ![1] bcast_S128_S1x128_1),
    TRef.unary main_call0.v8 main_call0.v11 (broadcastInDim S1x128 ![] bcast_S_S1x128),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x128 ![] bcast_S_S1x128),
    TRef.ternary main_call0.v13 main_call0.v12 main_call0.call0.v1 main_call0.call0.v2 (fun p a b => select (broadcastInDim S1x128 ![] bcast_S_S1x128 p) a b),
    unary main_v3 main_v5 (broadcastInDim S500000x128 ![0, 1] bcast_S1x128_S500000x128_0_1 : (⟨S1x128, .f32⟩ : BufTy).Contents (Elt F) → (⟨S500000x128, .f32⟩ : BufTy).Contents (Elt F)),
    binary main_arg1 main_v5 main_v6 (subf : (⟨S500000x128, .f32⟩ : BufTy).Contents (Elt F) → (⟨S500000x128, .f32⟩ : BufTy).Contents (Elt F) → (⟨S500000x128, .f32⟩ : BufTy).Contents (Elt F)),
    nullary main_cst_1 (constant S_ .f32 0x3727C5AC#32),
    unary main_cst_1 main_v7 (broadcastInDim S1x128 ![] bcast_S_S1x128 : (⟨S_, .f32⟩ : BufTy).Contents (Elt F) → (⟨S1x128, .f32⟩ : BufTy).Contents (Elt F)),
    binary main_v4 main_v7 main_v8 (addf : (⟨S1x128, .f32⟩ : BufTy).Contents (Elt F) → (⟨S1x128, .f32⟩ : BufTy).Contents (Elt F) → (⟨S1x128, .f32⟩ : BufTy).Contents (Elt F)),
    unary main_v8 main_v9 (Host.rsqrt : (⟨S1x128, .f32⟩ : BufTy).Contents (Elt F) → (⟨S1x128, .f32⟩ : BufTy).Contents (Elt F)),
    unary main_v9 main_v10 (broadcastInDim S500000x128 ![0, 1] bcast_S1x128_S500000x128_0_1 : (⟨S1x128, .f32⟩ : BufTy).Contents (Elt F) → (⟨S500000x128, .f32⟩ : BufTy).Contents (Elt F)),
    binary main_v6 main_v10 main_v11 (mulf : (⟨S500000x128, .f32⟩ : BufTy).Contents (Elt F) → (⟨S500000x128, .f32⟩ : BufTy).Contents (Elt F) → (⟨S500000x128, .f32⟩ : BufTy).Contents (Elt F)),
    binary main_v11 main_arg2 main_v12 ((fun l r => Host.dotGeneral dot_S500000x128_S128x128_S500000x128_1_1_0_0_n_n none l r) : (⟨S500000x128, .f32⟩ : BufTy).Contents (Elt F) → (⟨S128x128, .f32⟩ : BufTy).Contents (Elt F) → (⟨S500000x128, .f32⟩ : BufTy).Contents (Elt F)),
    TRef.nullary main_call1.cst (constant S_ .f32 0x00000000#32),
    TRef.unary main_call1.cst main_call1.v0 (broadcastInDim S500000x128 ![] bcast_S_S500000x128),
    TRef.binary (.of main_v12 : TRef sig ⟨S500000x128, .f32⟩) main_call1.v0 main_call1.v1 maximumf,
    binary main_arg0 main_v13 main_v14 ((fun a b => concatenate S500000x255 1 [⟨S500000x127, a⟩, ⟨S500000x128, b⟩] concatenates_S500000x127_S500000x128_S500000x255_d1) : (⟨S500000x127, .f32⟩ : BufTy).Contents (Elt F) → (⟨S500000x128, .f32⟩ : BufTy).Contents (Elt F) → (⟨S500000x255, .f32⟩ : BufTy).Contents (Elt F)),
    binary main_v14 main_arg3 main_v15 ((fun l r => Host.dotGeneral dot_S500000x255_S255x255_S500000x255_1_1_0_0_n_n none l r) : (⟨S500000x255, .f32⟩ : BufTy).Contents (Elt F) → (⟨S255x255, .f32⟩ : BufTy).Contents (Elt F) → (⟨S500000x255, .f32⟩ : BufTy).Contents (Elt F)) ]

set_option maxRecDepth 2048 in
/-- The program is that straight line: the functions unfolded at their calls, sequencing reassociated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., binary_bufs_sub .., nullary_bufs_sub .., unary_bufs_sub .., binary_bufs_sub ..,
    binary_bufs_sub .., binary_bufs_sub ..⟩

/-! ## What the buffers hold after the line -/

set_option maxRecDepth 8192 in
set_option maxHeartbeats 1000000 in
/-- The result buffer holds the composed term of the four arguments. -/
theorem out_eq (V : Valuation τ sig (Elt F)) :
    after ops V (main_v15 : DevRef τ sig)
      = refOut (V (main_arg0 : DevRef τ sig)) (V (main_arg1 : DevRef τ sig)) (V (main_arg2 : DevRef τ sig)) (V (main_arg3 : DevRef τ sig)) := by
  after_results_simp
  rfl

/-- The four argument buffers are written by no operation. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-! ## The run -/

/-- On every device, for any float values, from any memory with zero counters: every weakly fair execution of the
    reference terminates with the result buffer at the composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v15) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c => ⟨(h c main_v15).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.LibRowJoin.lean ====
/-
  Rows joined side by side, read at an index.

  Joining arrays of equal row count along the column axis lays their rows end to end: row `p` of the result is row
  `p` of the first array, then row `p` of the second, and so on. This file names the joined row of two or three
  rows (`join2`, `join3`), reads a two- or three-piece concatenation of rank-2 arrays along axis 1 at `(p, q)` as
  that joined row at `q`, and states the one law of sums such a join obeys: a sum over a joined row of products
  with a second factor is the sum over the first row plus the sum over the second, the second factor read at
  the matching positions. All statements are general in the extents.
-/
import Idealize.ShloMosaic.Lib.Pipeline.Value
import Idealize.ShloMosaic.Lib.ValueIdx

noncomputable section

namespace Cert.Lib.RowJoin

open Idealize.ShloMosaic Idealize.ShloMosaic.ValueIdx

variable {α : Type}

/-- Two rows laid end to end: position `q < n1` reads the first row at `q`, position `q ≥ n1` the second at `q - n1`. -/
def join2 {n1 n2 N : ℕ} (hN : N = n1 + n2) (u : Fin n1 → α) (v : Fin n2 → α) : Fin N → α := fun q =>
  if h : q.val < n1 then u ⟨q.val, h⟩ else v ⟨q.val - n1, by have := q.isLt; omega⟩

/-- Three rows laid end to end. -/
def join3 {n1 n2 n3 N : ℕ} (hN : N = n1 + n2 + n3) (u : Fin n1 → α) (v : Fin n2 → α) (w : Fin n3 → α) : Fin N → α := fun q =>
  if h : q.val < n1 then u ⟨q.val, h⟩
  else if h' : q.val < n1 + n2 then v ⟨q.val - n1, by omega⟩
  else w ⟨q.val - (n1 + n2), by have := q.isLt; omega⟩

theorem join2_left {n1 n2 N : ℕ} (hN : N = n1 + n2) (u : Fin n1 → α) (v : Fin n2 → α) (k : Fin n1) :
    join2 hN u v ⟨k.val, by have := k.isLt; omega⟩ = u k := by
  unfold join2
  rw [dif_pos (show k.val < n1 from k.isLt)]

theorem join2_right {n1 n2 N : ℕ} (hN : N = n1 + n2) (u : Fin n1 → α) (v : Fin n2 → α) (k : Fin n2) :
    join2 hN u v ⟨n1 + k.val, by have := k.isLt; omega⟩ = v k := by
  unfold join2
  rw [dif_neg (show ¬ n1 + k.val < n1 by omega)]
  exact congrArg v (Fin.ext (by show n1 + k.val - n1 = k.val; omega))

/-- A sum over the positions of a joined row, each term a product with a second factor, splits into the sum over
    the first row and the sum over the second: only commutativity and associativity of addition are used, so this
    holds in any commutative monoid with a multiplication (the extended reals included, infinities and all). -/
theorem sum_join2_mul {M : Type} [AddCommMonoid M] [Mul M] {n1 n2 N : ℕ} (hN : N = n1 + n2) (u : Fin n1 → M) (v : Fin n2 → M)
    (f : Fin N → M) :
    ∑ q : Fin N, join2 hN u v q * f q
      = (∑ k : Fin n1, u k * f ⟨k.val, by have := k.isLt; omega⟩) + ∑ k : Fin n2, v k * f ⟨n1 + k.val, by have := k.isLt; omega⟩ := by
  subst hN
  rw [Fin.sum_univ_add]
  refine congrArg₂ (· + ·) (Finset.sum_congr rfl fun k _ => ?_) (Finset.sum_congr rfl fun k _ => ?_)
  · exact congrArg (· * _) (join2_left rfl u v k)
  · exact congrArg (· * _) (join2_right rfl u v k)

/-- Two rank-2 arrays of `R` rows joined along axis 1: entry `(p, q)` is the joined row `p` at `q`. -/
theorem concat2_cols_apply {R n1 n2 N : ℕ} (hN : N = n1 + n2) (x1 : (⟨2, ![R, n1]⟩ : Shape).Idx → α) (x2 : (⟨2, ![R, n2]⟩ : Shape).Idx → α)
    (h : Shape.Concatenates [(⟨2, ![R, n1]⟩ : Shape), ⟨2, ![R, n2]⟩] ⟨2, ![R, N]⟩ 1) (p : Fin R) (q : Fin N) :
    concatenate ⟨2, ![R, N]⟩ 1 [⟨⟨2, ![R, n1]⟩, x1⟩, ⟨⟨2, ![R, n2]⟩, x2⟩] h (ix2 p q)
      = join2 hN (fun k => x1 (ix2 p k)) (fun k => x2 (ix2 p k)) q := by
  unfold join2
  by_cases hq : q.val < n1
  · rw [dif_pos hq]
    refine concatenate_pair_apply_left 1 x1 x2 h (ix2 p q) rfl (ix2 p ⟨q.val, hq⟩) fun b => ?_
    match b with
    | ⟨0, _⟩ => rfl
    | ⟨1, _⟩ => rfl
  · rw [dif_neg hq]
    refine concatenate_pair_apply_right 1 x1 x2 h (ix2 p q) rfl rfl (ix2 p ⟨q.val - n1, by have := q.isLt; omega⟩) (fun b hb => ?_) ?_
    · match b with
      | ⟨0, _⟩ => rfl
      | ⟨1, _⟩ => exact absurd rfl hb
    · show q.val - n1 + n1 = q.val
      omega

/-- Three rank-2 arrays of `R` rows joined along axis 1: entry `(p, q)` is the joined row `p` at `q`. -/
theorem concat3_cols_apply {R n1 n2 n3 N : ℕ} (hN : N = n1 + n2 + n3) (x1 : (⟨2, ![R, n1]⟩ : Shape).Idx → α)
    (x2 : (⟨2, ![R, n2]⟩ : Shape).Idx → α) (x3 : (⟨2, ![R, n3]⟩ : Shape).Idx → α)
    (h : Shape.Concatenates [(⟨2, ![R, n1]⟩ : Shape), ⟨2, ![R, n2]⟩, ⟨2, ![R, n3]⟩] ⟨2, ![R, N]⟩ 1) (p : Fin R) (q : Fin N) :
    concatenate ⟨2, ![R, N]⟩ 1 [⟨⟨2, ![R, n1]⟩, x1⟩, ⟨⟨2, ![R, n2]⟩, x2⟩, ⟨⟨2, ![R, n3]⟩, x3⟩] h (ix2 p q)
      = join3 hN (fun k => x1 (ix2 p k)) (fun k => x2 (ix2 p k)) (fun k => x3 (ix2 p k)) q := by
  unfold join3
  by_cases hq : q.val < n1
  · rw [dif_pos hq]
    refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 0 (Nat.zero_lt_succ _) ⟨2, ![R, n1]⟩ x1 rfl rfl 0 rfl (ix2 p ⟨q.val, hq⟩) (fun b hb => ?_) ?_
    · match b with
      | ⟨0, _⟩ => rfl
      | ⟨1, _⟩ => exact absurd rfl hb
    · show 0 + q.val = q.val
      omega
  · rw [dif_neg hq]
    by_cases hq' : q.val < n1 + n2
    · rw [dif_pos hq']
      refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 1 (Nat.succ_lt_succ (Nat.zero_lt_succ _)) ⟨2, ![R, n2]⟩ x2 rfl rfl n1 (by simp) (ix2 p ⟨q.val - n1, by omega⟩) (fun b hb => ?_) ?_
      · match b with
        | ⟨0, _⟩ => rfl
        | ⟨1, _⟩ => exact absurd rfl hb
      · show n1 + (q.val - n1) = q.val
        omega
    · rw [dif_neg hq']
      refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 2 (Nat.succ_lt_succ (Nat.succ_lt_succ (Nat.zero_lt_succ _))) ⟨2, ![R, n3]⟩ x3 rfl rfl (n1 + n2) (by simp) (ix2 p ⟨q.val - (n1 + n2), by have := q.isLt; omega⟩) (fun b hb => ?_) ?_
      · match b with
        | ⟨0, _⟩ => rfl
        | ⟨1, _⟩ => exact absurd rfl hb
      · show n1 + n2 + (q.val - (n1 + n2)) = q.val
        omega

end Cert.Lib.RowJoin

end
-- ==== Proof.RefValue.lean ====
/-
  The reference's result, read at an index, is the shared specification at the variance taken as the mean of the
  squared deviations.

  One lemma per stage of the composed term, each read at coordinates: the column sums are finite sums over the 500000
  rows; a vector set as a row and divided by a spread scalar is the entrywise quotient; the mean row, the centred
  array, the divisor 500000 − 0 = 500000, the variance row (its guard 500000 > 0 holds, so the select returns the
  quotient), the reciprocal square root, the normalised array; the contraction of the normalised row with a row of
  the first weight matrix; the clamp at zero; the joined row of length 127 + 128; and the contraction of the joined row
  with a row of the second weight matrix, split at column 127.
-/
import proofs.«108652_j5557687681830_1_alg».proof.Proof.RefRun
import proofs.«108652_j5557687681830_1_alg».proof.Proof.Spec
import proofs.«108652_j5557687681830_1_alg».proof.Proof.LibBroadcastInDim
import proofs.«108652_j5557687681830_1_alg».proof.Proof.LibRowJoin
import Idealize.ShloMosaic.PureOps.Ideal.Laws
import Idealize.ShloMosaic.Lib.Pipeline.Value
import Idealize.ShloMosaic.Lib.ValueIdx

noncomputable section

namespace Cert.ReferenceIdeal.RefValue

open Cert.ReferenceIdeal Idealize.ShloMosaic Idealize.ShloMosaic.ValueIdx
open Cert.Lib.InDim Cert.Lib.RowJoin

/-! ## A contraction of the last axes of two matrices, read at an output index -/

section TDot

variable (M K N : ℕ)

/-- Axis 0 of the left operand's index is the output's row. -/
theorem tdot_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- Axis 1 of the left operand's index is the contraction position. -/
theorem tdot_lhs_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- Axis 0 of the right operand's index is the output's column. -/
theorem tdot_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Axis 1 of the right operand's index is the contraction position. -/
theorem tdot_rhs_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum over its one-axis index shape is the sum over k < K of the two rows' products. -/
theorem tdot_sum_eq (l : (⟨2, ![M, K]⟩ : Shape).Idx → EReal) (r : (⟨2, ![N, K]⟩ : Shape).Idx → EReal) (p : Fin M) (g : Fin N) :
    ∑ q : (DotDims.transposedRhs M K N).contr.Idx,
        l ((DotDims.transposedRhs M K N).lhsIdx (ix2 p g) q) * r ((DotDims.transposedRhs M K N).rhsIdx (ix2 p g) q)
      = ∑ k : Fin K, l (ix2 p k) * r (ix2 g k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p g) ((contrEquiv1 (DotDims.transposedRhs M K N) K rfl rfl).symm k) = ix2 p k :=
    funext fun a => Fin.ext (by
      match a with
      | ⟨0, _⟩ => exact tdot_lhs_row M K N _ _
      | ⟨1, _⟩ => exact (tdot_lhs_contr M K N _ _).trans hk)
  have er : (DotDims.transposedRhs M K N).rhsIdx (ix2 p g) ((contrEquiv1 (DotDims.transposedRhs M K N) K rfl rfl).symm k) = ix2 g k :=
    funext fun a => Fin.ext (by
      match a with
      | ⟨0, _⟩ => exact tdot_rhs_row M K N _ _
      | ⟨1, _⟩ => exact (tdot_rhs_contr M K N _ _).trans hk)
  rw [el, er]

variable {M K N}

/-- The host's dot_general with these dimension numbers, at entry (p, g). -/
theorem hostTDot_apply {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (p : Fin M) (g : Fin N) :
    Host.dotGeneral (F := Ideal) d none l r (ix2 p g) = ∑ k : Fin K, l (ix2 p k) * r (ix2 g k) := by
  subst hd
  simp only [Host.dotGeneral]
  rw [Ideal.dotGeneral_apply]
  exact tdot_sum_eq M K N l r p g

end TDot

/-! ## A scalar spread over an array reads the scalar everywhere -/

/-- A rank-0 value broadcast with no dimension map: every entry is the scalar. -/
theorem scalar_spread {α : Type} {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

/-! ## The literals -/

/-- The word 0x48F42400 denotes the real 500000. -/
theorem nLit_eq : Cert.Spec.nLit = ((500000 : ℝ) : EReal) := by
  unfold Cert.Spec.nLit
  simp [Ideal.ofBits, Ideal.ieee, -EReal.coe_mul]; norm_num

/-- 500000 is positive. -/
theorem nLit_pos : (0 : EReal) < Cert.Spec.nLit := by
  rw [nLit_eq]
  exact_mod_cast (by norm_num : (0 : ℝ) < 500000)

/-! ## The stages of the reference's term, each read at coordinates -/

section Stages

variable [Facts]
open Facts₀ Facts
open Cert.ReferenceIdeal.RefRun

/-- The scalar zero word is 0. -/
theorem zeroS_apply (i : S_.Idx) : zeroS (F := Ideal) i = 0 := Ideal.ofBits_zero_f32

/-- The scalar 500000 word. -/
theorem nS_apply (i : S_.Idx) : nS (F := Ideal) i = Cert.Spec.nLit := rfl

/-- The column sums: at column k, the sum over the 500000 rows. -/
theorem colSum_apply (x : FVec Ideal S500000x128 .f32) (k : Fin 128) :
    colSum (F := Ideal) x (ix1 k) = ∑ n : Fin 500000, x (ix2 n k) := by
  have hR : S500000x128.Reduces [0] S128 := by decide
  show Ideal.hostReduceAdd reducesTo_S500000x128_S128_d0 x (zeroS (F := Ideal) (Shape.Idx.first h_S_)) (ix1 k) = _
  rw [Ideal.hostReduceAdd_single reducesTo_S500000x128_S128_d0 hR, zeroS_apply, zero_add]
  exact Finset.sum_congr rfl fun n _ => congrArg x (funext fun d => Fin.ext (by
    match d with
    | ⟨0, _⟩ => rfl
    | ⟨1, _⟩ => rfl))

/-- A vector set as a row over a spread scalar: the entrywise quotient. -/
theorem rowDiv_apply (v : FVec Ideal S128 .f32) (d : FVec Ideal S_ .f32) (u : Fin 1) (k : Fin 128) :
    rowDiv (F := Ideal) v d (ix2 u k) = Ideal.div (v (ix1 k)) (d ix0) := by
  show Ideal.div (broadcastInDim S1x128 ![1] bcast_S128_S1x128_1 v (ix2 u k))
      (broadcastInDim S1x128 ![] bcast_S_S1x128 d (ix2 u k)) = _
  rw [vec_as_row, scalar_spread]

/-- The mean row is the specification's mean. -/
theorem refMean_apply (agg : FVec Ideal S500000x128 .f32) (u : Fin 1) (k : Fin 128) :
    refMean (F := Ideal) agg (ix2 u k) = Cert.Spec.mean (Cert.Spec.mat agg) k := by
  unfold refMean
  rw [rowDiv_apply, colSum_apply]
  rfl

/-- The centred array. -/
theorem refCentered_apply (agg : FVec Ideal S500000x128 .f32) (p : Fin 500000) (k : Fin 128) :
    refCentered (F := Ideal) agg (ix2 p k) = Cert.Spec.mat agg p k - Cert.Spec.mean (Cert.Spec.mat agg) k := by
  show agg (ix2 p k) - broadcastInDim S500000x128 ![0, 1] bcast_S1x128_S500000x128_0_1 (refMean (F := Ideal) agg) (ix2 p k) = _
  rw [row_spread, refMean_apply]
  rfl

/-- The variance's divisor 500000 − 0 is 500000. -/
theorem refN_apply (i : S_.Idx) : refN (F := Ideal) i = Cert.Spec.nLit := by
  show Cert.Spec.nLit - (((0#32 : BitVec 32).toInt : ℝ) : EReal) = _
  simp

/-- The unguarded variance row is the mean of the squared deviations. -/
theorem refVarRaw_apply (agg : FVec Ideal S500000x128 .f32) (u : Fin 1) (k : Fin 128) :
    refVarRaw (F := Ideal) agg (ix2 u k) = Cert.Spec.varR (Cert.Spec.mat agg) k := by
  unfold refVarRaw
  rw [rowDiv_apply, colSum_apply, refN_apply]
  unfold Cert.Spec.varR
  refine congrArg (fun s => Ideal.div s Cert.Spec.nLit) (Finset.sum_congr rfl fun n _ => ?_)
  show refCentered (F := Ideal) agg (ix2 n k) * refCentered (F := Ideal) agg (ix2 n k) = _
  rw [refCentered_apply]

/-- The guard holds: 500000 > 0. -/
theorem refGuard_apply (i : S_.Idx) : refGuard (F := Ideal) i = 1#1 := by
  show Ideal.cmp .ogt (refN (F := Ideal) i) (zeroS (F := Ideal) i) = 1#1
  rw [refN_apply, zeroS_apply]
  simp [Ideal.cmp, nLit_pos]

/-- So the variance row is the unguarded one: the NaN word is never read. -/
theorem refVar_apply (agg : FVec Ideal S500000x128 .f32) (u : Fin 1) (k : Fin 128) :
    refVar (F := Ideal) agg (ix2 u k) = Cert.Spec.varR (Cert.Spec.mat agg) k := by
  unfold refVar
  rw [select_apply, scalar_spread bcast_S_S1x128 (refGuard (F := Ideal)), refGuard_apply, select_one, refVarRaw_apply]

/-- The reciprocal square root of variance plus epsilon. -/
theorem refRstd_apply (agg : FVec Ideal S500000x128 .f32) (u : Fin 1) (k : Fin 128) :
    refRstd (F := Ideal) agg (ix2 u k) = Ideal.rsqrt (Cert.Spec.varR (Cert.Spec.mat agg) k + Cert.Spec.epsLit) := by
  show Ideal.rsqrt (refVar (F := Ideal) agg (ix2 u k)
      + broadcastInDim S1x128 ![] bcast_S_S1x128 (constant (F := Ideal) S_ .f32 0x3727C5AC#32) (ix2 u k)) = _
  rw [refVar_apply, scalar_spread]
  rfl

/-- The normalised array. -/
theorem refNormed_apply (agg : FVec Ideal S500000x128 .f32) (p : Fin 500000) (k : Fin 128) :
    refNormed (F := Ideal) agg (ix2 p k)
      = Cert.Spec.normed (Cert.Spec.mat agg) (Cert.Spec.varR (Cert.Spec.mat agg)) p k := by
  show refCentered (F := Ideal) agg (ix2 p k)
      * broadcastInDim S500000x128 ![0, 1] bcast_S1x128_S500000x128_0_1 (refRstd (F := Ideal) agg) (ix2 p k) = _
  rw [refCentered_apply, row_spread, refRstd_apply]
  rfl

/-- The first linear layer: row f of the first weight matrix against the normalised row p. -/
theorem refLin_apply (agg : FVec Ideal S500000x128 .f32) (w1 : FVec Ideal S128x128 .f32) (p : Fin 500000) (f : Fin 128) :
    refLin (F := Ideal) agg w1 (ix2 p f)
      = ∑ k : Fin 128, Cert.Spec.normed (Cert.Spec.mat agg) (Cert.Spec.varR (Cert.Spec.mat agg)) p k * Cert.Spec.mat w1 f k := by
  unfold refLin
  refine (hostTDot_apply dot_S500000x128_S128x128_S500000x128_1_1_0_0_n_n rfl _ _ p f).trans ?_
  exact Finset.sum_congr rfl fun k _ => congrArg (· * w1 (ix2 f k)) (refNormed_apply agg p k)

/-- Its clamp at zero. -/
theorem refAct_apply (agg : FVec Ideal S500000x128 .f32) (w1 : FVec Ideal S128x128 .f32) (p : Fin 500000) (f : Fin 128) :
    refAct (F := Ideal) agg w1 (ix2 p f)
      = Cert.Spec.act (Cert.Spec.mat agg) (Cert.Spec.mat w1) (Cert.Spec.varR (Cert.Spec.mat agg)) p f := by
  show max (refLin (F := Ideal) agg w1 (ix2 p f))
      (broadcastInDim S500000x128 ![] bcast_S_S500000x128 (zeroS (F := Ideal)) (ix2 p f)) = _
  rw [refLin_apply, scalar_spread, zeroS_apply]
  rfl

/-- The joined row: the first argument's row p, then the clamped row p. -/
theorem refCat_apply (h : FVec Ideal S500000x127 .f32) (agg : FVec Ideal S500000x128 .f32) (w1 : FVec Ideal S128x128 .f32)
    (p : Fin 500000) (q : Fin 255) :
    refCat (F := Ideal) h agg w1 (ix2 p q)
      = join2 (show 255 = 127 + 128 from rfl) (fun k => Cert.Spec.mat h p k)
          (fun f => Cert.Spec.act (Cert.Spec.mat agg) (Cert.Spec.mat w1) (Cert.Spec.varR (Cert.Spec.mat agg)) p f) q :=
  (concat2_cols_apply rfl h (refAct (F := Ideal) agg w1) concatenates_S500000x127_S500000x128_S500000x255_d1 p q).trans
    (congrArg (fun v => join2 (show 255 = 127 + 128 from rfl) (fun k => Cert.Spec.mat h p k) v q)
      (funext fun f => refAct_apply agg w1 p f))

/-- The reference's result at (p, g) is the specification's output at the variance taken as the mean of the squared
    deviations. -/
theorem refOut_apply (h : FVec Ideal S500000x127 .f32) (agg : FVec Ideal S500000x128 .f32) (w1 : FVec Ideal S128x128 .f32)
    (w2 : FVec Ideal S255x255 .f32) (p : Fin 500000) (g : Fin 255) :
    RefRun.refOut (F := Ideal) h agg w1 w2 (ValueIdx.ix2 p g)
      = Cert.Spec.out (Cert.Spec.mat h) (Cert.Spec.mat agg) (Cert.Spec.mat w1) (Cert.Spec.mat w2) (Cert.Spec.varR (Cert.Spec.mat agg)) p g := by
  unfold RefRun.refOut
  refine (hostTDot_apply dot_S500000x255_S255x255_S500000x255_1_1_0_0_n_n rfl _ _ p g).trans ?_
  refine (Finset.sum_congr rfl fun q _ => congrArg (· * w2 (ix2 g q)) (refCat_apply h agg w1 p q)).trans ?_
  exact sum_join2_mul (show 255 = 127 + 128 from rfl) _ _ (fun q => w2 (ix2 g q))

end Stages

end Cert.ReferenceIdeal.RefValue

end
-- ==== Proof.LibMeanAlgebra.lean ====
/-
  The mean over the feature axis commutes with a weighted sum of rows.

  For real data: rows `A e` (`e` in a finite set `L`), a matrix `W`, a bias `b`, a scale `i` and a nonzero
  divisor `d`,
      ( ∑_c ( (∑_{e ∈ L} ∑_k A e k · W k c) · i + b c ) ) / d
    =  i · ∑_{e ∈ L} ∑_k A e k · ( (∑_c W k c) / d )  +  (∑_c b c) / d :
  the mean over `c` is linear, so it passes through the sum over `e` and the contraction over `k` and lands on the
  columns of `W`. Stated on the extended reals for data that are real numbers (where the extended reals'
  addition and multiplication are the reals'), with the quotient `Ideal.div` and the explicit zero initial values
  of the sums as they stand in a lowered program.
-/
import Idealize.ShloMosaic.PureOps.Ideal
import Idealize.ShloMosaic.PureOps.Ideal.Laws

noncomputable section

namespace Idealize.ShloMosaic.MeanAlgebra

open Idealize.ShloMosaic

/-- The coercion of the reals into the extended reals commutes with finite sums. -/
theorem coe_sum {ι : Type} (s : Finset ι) (g : ι → ℝ) : ((∑ e ∈ s, g e : ℝ) : EReal) = ∑ e ∈ s, ((g e : ℝ) : EReal) := by
  classical
  -- induction on the index set: the empty sum is zero on both sides, and one more term is one more addition,
  -- which the coercion respects
  refine Finset.induction_on s ?_ ?_
  · rw [Finset.sum_empty, Finset.sum_empty, EReal.coe_zero]
  · intro a t ha ih
    rw [Finset.sum_insert ha, Finset.sum_insert ha, EReal.coe_add, ih]

/-- THE IDENTITY over the reals. -/
theorem mean_commutes_real {ι : Type} {K J : Nat} (L : Finset ι) (A : ι → Fin K → ℝ) (W : Fin K → Fin J → ℝ) (b : Fin J → ℝ)
    (i d : ℝ) (hd : d ≠ 0) :
    (∑ c : Fin J, ((∑ e ∈ L, ∑ k : Fin K, A e k * W k c) * i + b c)) / d
      = i * (∑ e ∈ L, ∑ k : Fin K, A e k * ((∑ c : Fin J, W k c) / d)) + (∑ c : Fin J, b c) / d := by
  -- the sum over the columns passes through the sums over the rows and over the contraction index
  have h1 : (∑ c : Fin J, ∑ e ∈ L, ∑ k : Fin K, A e k * W k c)
      = ∑ e ∈ L, ∑ k : Fin K, A e k * ∑ c : Fin J, W k c := by
    rw [Finset.sum_comm]
    refine Finset.sum_congr rfl (fun e _ => ?_)
    rw [Finset.sum_comm]
    refine Finset.sum_congr rfl (fun k _ => ?_)
    rw [Finset.mul_sum]
  -- the division by `d` comes out of the same two sums
  have h2 : (∑ e ∈ L, ∑ k : Fin K, A e k * ((∑ c : Fin J, W k c) / d))
      = (∑ e ∈ L, ∑ k : Fin K, A e k * ∑ c : Fin J, W k c) / d := by
    rw [Finset.sum_div]
    refine Finset.sum_congr rfl (fun e _ => ?_)
    rw [Finset.sum_div]
    refine Finset.sum_congr rfl (fun k _ => ?_)
    rw [mul_div_assoc]
  rw [Finset.sum_add_distrib, ← Finset.sum_mul, add_div, h1, h2]
  ring

/-- THE IDENTITY on the extended reals, for real data, in the form a lowered program has it. -/
theorem mean_commutes {ι : Type} {K J : Nat} (L : Finset ι) (A : ι → Fin K → ℝ) (W : Fin K → Fin J → ℝ) (b : Fin J → ℝ)
    (i d : ℝ) (hd : d ≠ 0) :
    Ideal.div ((0 : EReal) + ∑ c : Fin J,
        (((0 : EReal) + ∑ e ∈ L, ∑ k : Fin K, ((A e k : ℝ) : EReal) * ((W k c : ℝ) : EReal)) * ((i : ℝ) : EReal)
          + ((b c : ℝ) : EReal))) ((d : ℝ) : EReal)
      = ((i : ℝ) : EReal) * ((0 : EReal) + ∑ e ∈ L, ∑ k : Fin K,
            ((A e k : ℝ) : EReal) * Ideal.div ((0 : EReal) + ∑ c : Fin J, ((W k c : ℝ) : EReal)) ((d : ℝ) : EReal))
        + Ideal.div ((0 : EReal) + ∑ c : Fin J, ((b c : ℝ) : EReal)) ((d : ℝ) : EReal) := by
  -- a quotient by a nonzero real is a product with its real reciprocal; then every product, sum and finite sum of
  -- coerced reals is the coercion of the real product, sum and finite sum, so both sides are coerced reals
  simp only [Ideal.div_coe hd, zero_add, ← EReal.coe_mul, ← coe_sum, ← EReal.coe_add]
  rw [EReal.coe_eq_coe_iff]
  simp only [mul_one_div]
  exact mean_commutes_real L A W b i d hd

end Idealize.ShloMosaic.MeanAlgebra

end
-- ==== Proof.VarLaw.lean ====
/-
  The two ways of writing a variance agree for real data.

  For real numbers x_1 … x_N (N ≠ 0 the number of terms), with μ = (Σ x) / N,
      (Σ x²) / N − μ²  =  (Σ (x − μ)²) / N :
  expand the square, Σ (x − μ)² = Σ x² − 2 μ Σ x + N μ², and use Σ x = N μ. On the extended reals the same equation
  holds when every entry is a real number: sums, products and differences of coerced reals are coerced reals, and
  the quotient by the real N is the product with 1 / N. (At an infinite entry the left side is ⊤ − ⊤ and the
  identity is lost; hence the hypothesis.)
-/
import proofs.«108652_j5557687681830_1_alg».proof.Proof.Spec
import proofs.«108652_j5557687681830_1_alg».proof.Proof.LibMeanAlgebra

noncomputable section

namespace Cert.Spec

open Idealize.ShloMosaic

/-- The word 0x48F42400 is 2^18 · (1 + 7611392 / 2^23) = 500000. -/
theorem nLit_eq : nLit = ((500000 : ℝ) : EReal) := by
  simp [nLit, Ideal.ofBits, Ideal.ieee, -EReal.coe_mul]; norm_num

/-- The identity over the reals, over any finite index type with `N` elements, the quotients written as products
with `1 / N`. -/
theorem var_real {ι : Type} [Fintype ι] (x : ι → ℝ) (N : ℝ) (hN : N ≠ 0) (hc : (Fintype.card ι : ℝ) = N) :
    (∑ i, x i * x i) * (1 / N) - ((∑ i, x i) * (1 / N)) * ((∑ i, x i) * (1 / N))
      = (∑ i, (x i - (∑ j, x j) * (1 / N)) * (x i - (∑ j, x j) * (1 / N))) * (1 / N) := by
  -- expand the square termwise, then sum: the cross term gives 2 μ Σ x and the constant term N μ²
  have h : ∀ i, (x i - (∑ j, x j) * (1 / N)) * (x i - (∑ j, x j) * (1 / N))
      = x i * x i - 2 * ((∑ j, x j) * (1 / N)) * x i + ((∑ j, x j) * (1 / N)) * ((∑ j, x j) * (1 / N)) := by
    intro i; ring
  rw [Finset.sum_congr rfl (fun i _ => h i), Finset.sum_add_distrib, Finset.sum_sub_distrib, ← Finset.mul_sum,
    Finset.sum_const, Finset.card_univ, nsmul_eq_mul, hc]
  field_simp
  ring

/-- For real data the mean of the squares less the square of the mean is the mean of the squared deviations. -/
theorem varK_eq_varR (A : Fin 500000 → Fin 128 → EReal) (hA : ∀ n k, ∃ r : ℝ, A n k = (r : EReal)) (k : Fin 128) :
    varK A k = varR A k := by
  choose a ha using hA
  have h5 : (500000 : ℝ) ≠ 0 := by norm_num
  have hc : (Fintype.card (Fin 500000) : ℝ) = 500000 := by rw [Fintype.card_fin]; norm_num
  unfold varK varR mean
  rw [nLit_eq]
  -- every entry is a coerced real; push the coercion outwards through products, sums, differences
  simp only [ha, Ideal.div_coe h5, ← EReal.coe_mul, ← MeanAlgebra.coe_sum, ← EReal.coe_sub]
  rw [EReal.coe_eq_coe_iff]
  exact var_real (fun n => a n k) 500000 h5 hc

end Cert.Spec

end
-- ==== Proof.PreAgg.lean ====
/-
  From the precondition to "every entry of the batch-normalised argument is a real number".

  The precondition is the conjunction of four tests "every |x| is below +∞", one per argument array, each an
  all-axes reduction by `and` of the entrywise comparison. A conjunction of one-bit words that is 1 has both
  conjuncts 1; a reduction by `and` that is 1 had a 1 at every entry; and |x| = max x (−x) < ⊤ on the extended
  reals excludes x = ⊤ (then |x| = ⊤) and x = ⊥ (then −x = ⊤), leaving a real.
-/
import proofs.«108652_j5557687681830_1_alg».proof.Defs
import Idealize.ShloMosaic.Lib.ReduceAll
import Idealize.ShloMosaic.Lib.ValueIdx

noncomputable section

namespace Cert.KernelIdeal.PreFacts

open Idealize.ShloMosaic Idealize.SL.Sem

/-- The rank-0 shape has one index. -/
instance : Subsingleton Cert.Pre_finite_inputs.S_.Idx := ⟨fun a b => funext fun d => d.elim0⟩

/-- An extended real whose absolute value is below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have hT : Ideal.ofBits .f32 0x7F800000#32 = (⊤ : EReal) := by simp [Ideal.ofBits, Ideal.ieee]
  change Ideal.cmp .olt (max x (-x)) (Ideal.ofBits .f32 0x7F800000#32) = 1#1 at h
  rw [hT] at h
  induction x using EReal.rec with
  | bot => simp [Ideal.cmp] at h
  | coe r => exact ⟨r, rfl⟩
  | top => simp [Ideal.cmp] at h

/-- Under the precondition every entry of the batch-normalised argument is a real number. -/
theorem agg_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S500000x128.Idx) :
    ∃ r : ℝ, m ((c.tc : Thread Cert.KernelIdeal.nD Cert.KernelIdeal.τ).loc Cert.KernelIdeal.main_arg1) i = (r : EReal) := by
  have e := congrFun (hpre c) ValueIdx.ix0
  dsimp only [Cert.Pre_finite_inputs.fn, Cert.Pre_finite_inputs.fn_part1] at e
  simp only [andi, IntOp.andi_eq_one] at e
  obtain ⟨⟨⟨-, h1⟩, -⟩, -⟩ := e
  -- the second conjunct is the test of the batch-normalised argument; read it at entry `i`
  have h2 := Host.reduce_andi_all _ _ _ _ _ h1 i
  exact real_of_abs_lt _ h2

end Cert.KernelIdeal.PreFacts

end
-- ==== Proof.lean ====
/-
  The certificate of a batch-normalised two-layer projection against its plain reference.

  Both programs take h (500000 × 127), agg (500000 × 128), w1 (128 × 128) and w2 (255 × 255) and return, row by row, w2 applied to the
  concatenation of h with relu (w1 applied to the batch-normalised agg). The kernel program computes the batch statistics in a first kernel
  region (column sums and column sums of squares, accumulated over 50 blocks of rows), forms mean, variance E[x²] − (E x)² and inverse
  deviation on the host, and in a second kernel region computes each block of 5000 output rows as the sum of two products against the two
  row blocks of w2 transposed. The reference computes the variance as E[(x − E x)²] and multiplies the concatenated row by w2 in one
  contraction.

  On the extended reals the two outputs are one function of the arguments (Spec.lean) up to which variance they use; the two variances
  agree for real data (VarLaw.lean), and the precondition makes the entries of agg real (PreAgg.lean). Splitting the 255-term contraction at
  column 127 and regrouping the 500000-term column sums into 50 block sums use only commutativity and associativity of addition.

  The frames: each kernel program runs region, host stretch, region (K/Run.lean at the word-level instance, KI/Run.lean at the ideal one, the
  same text); the reference's run is its operations in order (RefRun.lean). No operation of the kernel program was rewritten for the ideal
  reading, so that conjunct is trivial.
-/
import proofs.«108652_j5557687681830_1_alg».proof.Defs
import proofs.«108652_j5557687681830_1_alg».proof.Proof.Gen.Kernel
import proofs.«108652_j5557687681830_1_alg».proof.Proof.Gen.KernelIdeal
import proofs.«108652_j5557687681830_1_alg».proof.Proof.Gen.ReferenceIdeal
import proofs.«108652_j5557687681830_1_alg».proof.Proof.Gen.Pre_finite_inputs
import proofs.«108652_j5557687681830_1_alg».proof.Proof.K.Run
import proofs.«108652_j5557687681830_1_alg».proof.Proof.KI.Run
import proofs.«108652_j5557687681830_1_alg».proof.Proof.KI.KVal
import proofs.«108652_j5557687681830_1_alg».proof.Proof.RefRun
import proofs.«108652_j5557687681830_1_alg».proof.Proof.RefValue
import proofs.«108652_j5557687681830_1_alg».proof.Proof.VarLaw
import proofs.«108652_j5557687681830_1_alg».proof.Proof.PreAgg

noncomputable section

namespace Cert.Proof

open Idealize.ShloMosaic Idealize.ShloMosaic.TcCoe Idealize.SL.Sem Idealize.ShloMosaic.ValueIdx

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- For real features the reference's result array and the kernel program's are one function of the arguments: entry by entry both are the
    shared output formula, at the two variances, which agree. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.RefRun.refOut (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Fr.W3 (F := Ideal) m c (Proc.devRef .tc Cert.KernelIdeal.main_v14) := by
  funext i
  obtain ⟨p, g, rfl⟩ : ∃ (p : Fin 500000) (g : Fin 255), i = ix2 p g := ⟨i 0, i 1, eq_ix2 i⟩
  refine (Cert.ReferenceIdeal.RefValue.refOut_apply _ _ _ _ p g).trans ?_
  refine Eq.trans ?_ (Cert.KernelIdeal.Fr.out_value m c p g).symm
  exact congrArg (fun v => Cert.Spec.out _ _ _ _ v p g)
    (funext fun k => (Cert.Spec.varK_eq_varR _ (fun n k' => Cert.KernelIdeal.PreFacts.agg_real m hpre c (ix2 n k')) k).symm)

theorem algebraic : Cert.algebraic_KernelIdeal_ReferenceIdeal := by
  intro m ρ m' ρ' hpre hagree
  refine ⟨fun c => Cert.KernelIdeal.Fr.W3 (F := Ideal) m c (Proc.devRef .tc Cert.KernelIdeal.main_v14), ?_, ?_⟩
  · exact (θ_run Cert.KernelIdeal.defs _ _).mono (fun _ h c =>
      ⟨h c _ (Cert.KernelIdeal.Fr.mem_uc Cert.KernelIdeal.main_v14 (by decide)),
       (h c _ (Cert.KernelIdeal.Fr.mem_uc Cert.KernelIdeal.main_arg0 (by decide))).trans (Cert.KernelIdeal.Fr.W3_main_arg0 m c),
       (h c _ (Cert.KernelIdeal.Fr.mem_uc Cert.KernelIdeal.main_arg1 (by decide))).trans (Cert.KernelIdeal.Fr.W3_main_arg1 m c),
       (h c _ (Cert.KernelIdeal.Fr.mem_uc Cert.KernelIdeal.main_arg2 (by decide))).trans (Cert.KernelIdeal.Fr.W3_main_arg2 m c),
       (h c _ (Cert.KernelIdeal.Fr.mem_uc Cert.KernelIdeal.main_arg3 (by decide))).trans (Cert.KernelIdeal.Fr.W3_main_arg3 m c)⟩)
      (Cert.KernelIdeal.Fr.run_all (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2]
    exact result_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
